-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : FVec F S64x64 .f32) (main_arg2 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S100000x64 : Shape := ⟨2, ![100000, 64]⟩
abbrev S64x64 : Shape := ⟨2, ![64, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x64 : Shape := ⟨2, ![5000, 64]⟩
abbrev S1600000x64 : Shape := ⟨2, ![1600000, 64]⟩
abbrev S100000x1 : Shape := ⟨2, ![100000, 1]⟩

abbrev nBuf : Space → Nat
  | .hbm => 68
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S1600000x1, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S100000, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_c_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S2x1600000, .i32⟩
  | .hbm, ⟨3, _⟩ => ⟨S100000, .i32⟩
  | .hbm, ⟨4, _⟩ => ⟨S1x1600000, .i32⟩
  | .hbm, ⟨5, _⟩ => ⟨S1600000, .i32⟩
  | .hbm, ⟨6, _⟩ => ⟨S1700000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KerStages.lean ====
/-
  The kernel program's host lines as functions.  Around its one pallas_call, @main runs 43 host operations
  before the region (the two rows of the edge list, the degree count, its guarded inverse square root, the
  per-edge normalisation) and 21 after it (the gather of the product's rows, the scaling, the aggregation, the
  self-loop term and the final sum).  The stages below name each operation's result: those before the region as
  functions of the three arguments, those after it as functions of what they read from before — the two index
  rows r and cl, the inverse square roots dis, the per-edge factors nrm — and of the region's output h.
-/
import proofs.«170912_j32487132627457_2_alg».proof.Proof.Gen.KernelIdeal

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## Before the region -/

def p_main_v0 (x0 : (⟨S100000x64, .f32⟩ : BufTy).Contents (Elt F)) (x1 : (⟨S64x64, .f32⟩ : BufTy).Contents (Elt F)) (x2 : (⟨S2x1600000, .i32⟩ : BufTy).Contents (Elt F)) : (⟨S1x1600000, .i32⟩ : BufTy).Contents (Elt F) :=
  ((extractStridedSlice S1x1600000 ![0, 0] · slices_S2x1600000_S1x1600000_0_0) : (⟨S2x1600000, .i32⟩ : BufTy).Contents (Elt F) → (⟨S1x1600000, .i32⟩ : BufTy).Contents (Elt F)) x2
def p_main_v1 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i32⟩ : BufTy).Contents (Elt F) :=
  (fun y => shapeCast _ y shapeCasts_S1x1600000_S1600000) (p_main_v0 x0 x1 x2)
def p_main_v2 (x0 : (⟨S100000x64, .f32⟩ : BufTy).Contents (Elt F)) (x1 : (⟨S64x64, .f32⟩ : BufTy).Contents (Elt F)) (x2 : (⟨S2x1600000, .i32⟩ : BufTy).Contents (Elt F)) : (⟨S1x1600000, .i32⟩ : BufTy).Contents (Elt F) :=
  ((extractStridedSlice S1x1600000 ![1, 0] · slices_S2x1600000_S1x1600000_1_0) : (⟨S2x1600000, .i32⟩ : BufTy).Contents (Elt F) → (⟨S1x1600000, .i32⟩ : BufTy).Contents (Elt F)) x2
def p_main_v3 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i32⟩ : BufTy).Contents (Elt F) :=
  (fun y => shapeCast _ y shapeCasts_S1x1600000_S1600000) (p_main_v2 x0 x1 x2)
def p_main_cst (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  (constant S_ .f32 0x3F800000#32)
def p_main_v4 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .f32⟩ : BufTy).Contents (Elt F) :=
  (broadcastInDim S1600000 ![] bcast_S_S1600000 : (⟨S_, .f32⟩ : BufTy).Contents (Elt F) → (⟨S1600000, .f32⟩ : BufTy).Contents (Elt F)) (p_main_cst x0 x1 x2)
def p_main_cst_0 (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  (constant S_ .f32 0x00000000#32)
def p_main_v5 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (broadcastInDim S100000 ![] bcast_S_S100000 : (⟨S_, .f32⟩ : BufTy).Contents (Elt F) → (⟨S100000, .f32⟩ : BufTy).Contents (Elt F)) (p_main_cst_0 x0 x1 x2)
def p_main_v6 (x0 : (⟨S100000x64, .f32⟩ : BufTy).Contents (Elt F)) (x1 : (⟨S64x64, .f32⟩ : BufTy).Contents (Elt F)) (x2 : (⟨S2x1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (p_main_v1 x0 x1 x2)
def p_main_v7 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) (p_main_v5 x0 x1 x2) (p_main_v6 x0 x1 x2) (p_main_v4 x0 x1 x2)
def p_main_cst_1 (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  (constant S_ .f32 0x3F800000#32)
def p_main_v8 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (broadcastInDim S100000 ![] bcast_S_S100000 : (⟨S_, .f32⟩ : BufTy).Contents (Elt F) → (⟨S100000, .f32⟩ : BufTy).Contents (Elt F)) (p_main_cst_1 x0 x1 x2)
def p_main_v9 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (addf : (⟨S100000, .f32⟩ : BufTy).Contents (Elt F) → (⟨S100000, .f32⟩ : BufTy).Contents (Elt F) → (⟨S100000, .f32⟩ : BufTy).Contents (Elt F)) (p_main_v7 x0 x1 x2) (p_main_v8 x0 x1 x2)
def p_main_cst_2 (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  (constant S_ .f32 0x00000000#32)
def p_main_v10 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (broadcastInDim S100000 ![] bcast_S_S100000 : (⟨S_, .f32⟩ : BufTy).Contents (Elt F) → (⟨S100000, .f32⟩ : BufTy).Contents (Elt F)) (p_main_cst_2 x0 x1 x2)
def p_main_v11 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .i1⟩ : BufTy).Contents (Elt F) :=
  (cmpf .ogt : (⟨S100000, .f32⟩ : BufTy).Contents (Elt F) → (⟨S100000, .f32⟩ : BufTy).Contents (Elt F) → (⟨S100000, .i1⟩ : BufTy).Contents (Elt F)) (p_main_v9 x0 x1 x2) (p_main_v10 x0 x1 x2)
def p_main_cst_3 (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  (constant S_ .f32 0x2B8CBCCC#32)
def p_main_v12 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (broadcastInDim S100000 ![] bcast_S_S100000 : (⟨S_, .f32⟩ : BufTy).Contents (Elt F) → (⟨S100000, .f32⟩ : BufTy).Contents (Elt F)) (p_main_cst_3 x0 x1 x2)
def p_main_v13 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (maximumf : (⟨S100000, .f32⟩ : BufTy).Contents (Elt F) → (⟨S100000, .f32⟩ : BufTy).Contents (Elt F) → (⟨S100000, .f32⟩ : BufTy).Contents (Elt F)) (p_main_v9 x0 x1 x2) (p_main_v12 x0 x1 x2)
def p_main_v14 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (Host.rsqrt : (⟨S100000, .f32⟩ : BufTy).Contents (Elt F) → (⟨S100000, .f32⟩ : BufTy).Contents (Elt F)) (p_main_v13 x0 x1 x2)
def p_main_cst_4 (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  (constant S_ .f32 0x00000000#32)
def p_main_call0_v0 (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  id (p_main_cst_4 x0 x1 x2)
def p_main_call0_v1 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (broadcastInDim S100000 ![] bcast_S_S100000) (p_main_call0_v0 x0 x1 x2)
def p_main_v15 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  select (p_main_v11 x0 x1 x2) (p_main_v14 x0 x1 x2) (p_main_call0_v1 x0 x1 x2)
def p_main_c (x0 : (⟨S100000x64, .f32⟩ : BufTy).Contents (Elt F)) (x1 : (⟨S64x64, .f32⟩ : BufTy).Contents (Elt F)) (x2 : (⟨S2x1600000, .i32⟩ : BufTy).Contents (Elt F)) : (⟨S_, .i32⟩ : BufTy).Contents (Elt F) :=
  (constantI S_ 32 0#32)
def p_main_v16 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (p_main_c x0 x1 x2)
def p_main_v17 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (p_main_v1 x0 x1 x2) (p_main_v16 x0 x1 x2)
def p_main_c_5 (x0 : (⟨S100000x64, .f32⟩ : BufTy).Contents (Elt F)) (x1 : (⟨S64x64, .f32⟩ : BufTy).Contents (Elt F)) (x2 : (⟨S2x1600000, .i32⟩ : BufTy).Contents (Elt F)) : (⟨S_, .i32⟩ : BufTy).Contents (Elt F) :=
  (constantI S_ 32 100000#32)
def p_main_v18 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (p_main_c_5 x0 x1 x2)
def p_main_v19 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (p_main_v1 x0 x1 x2) (p_main_v18 x0 x1 x2)
def p_main_v20 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (p_main_v17 x0 x1 x2) (p_main_v19 x0 x1 x2) (p_main_v1 x0 x1 x2)
def p_main_v21 (x0 : (⟨S100000x64, .f32⟩ : BufTy).Contents (Elt F)) (x1 : (⟨S64x64, .f32⟩ : BufTy).Contents (Elt F)) (x2 : (⟨S2x1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (p_main_v20 x0 x1 x2)
def p_main_v22 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .f32⟩ : BufTy).Contents (Elt F) :=
  ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) (p_main_v15 x0 x1 x2) (p_main_v21 x0 x1 x2)
def p_main_c_6 (x0 : (⟨S100000x64, .f32⟩ : BufTy).Contents (Elt F)) (x1 : (⟨S64x64, .f32⟩ : BufTy).Contents (Elt F)) (x2 : (⟨S2x1600000, .i32⟩ : BufTy).Contents (Elt F)) : (⟨S_, .i32⟩ : BufTy).Contents (Elt F) :=
  (constantI S_ 32 0#32)
def p_main_v23 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (p_main_c_6 x0 x1 x2)
def p_main_v24 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (p_main_v3 x0 x1 x2) (p_main_v23 x0 x1 x2)
def p_main_c_7 (x0 : (⟨S100000x64, .f32⟩ : BufTy).Contents (Elt F)) (x1 : (⟨S64x64, .f32⟩ : BufTy).Contents (Elt F)) (x2 : (⟨S2x1600000, .i32⟩ : BufTy).Contents (Elt F)) : (⟨S_, .i32⟩ : BufTy).Contents (Elt F) :=
  (constantI S_ 32 100000#32)
def p_main_v25 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (p_main_c_7 x0 x1 x2)
def p_main_v26 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (p_main_v3 x0 x1 x2) (p_main_v25 x0 x1 x2)
def p_main_v27 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (p_main_v24 x0 x1 x2) (p_main_v26 x0 x1 x2) (p_main_v3 x0 x1 x2)
def p_main_v28 (x0 : (⟨S100000x64, .f32⟩ : BufTy).Contents (Elt F)) (x1 : (⟨S64x64, .f32⟩ : BufTy).Contents (Elt F)) (x2 : (⟨S2x1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (p_main_v27 x0 x1 x2)
def p_main_v29 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .f32⟩ : BufTy).Contents (Elt F) :=
  ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) (p_main_v15 x0 x1 x2) (p_main_v28 x0 x1 x2)
def p_main_v30 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (p_main_v22 x0 x1 x2) (p_main_v29 x0 x1 x2)

/-! ## After the region -/

def t_main_c_8 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S_, .i32⟩ : BufTy).Contents (Elt F) :=
  (constantI S_ 32 0#32)
def t_main_v32 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (t_main_c_8 r cl dis nrm h)
def t_main_v33 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) r (t_main_v32 r cl dis nrm h)
def t_main_c_9 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S_, .i32⟩ : BufTy).Contents (Elt F) :=
  (constantI S_ 32 100000#32)
def t_main_v34 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (t_main_c_9 r cl dis nrm h)
def t_main_v35 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) r (t_main_v34 r cl dis nrm h)
def t_main_v36 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (t_main_v33 r cl dis nrm h) (t_main_v35 r cl dis nrm h) r
def t_main_v37 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (t_main_v36 r cl dis nrm h)
def t_main_v38 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S1600000x64, .f32⟩ : BufTy).Contents (Elt F) :=
  ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) h (t_main_v37 r cl dis nrm h)
def t_main_v39 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S1600000x1, .f32⟩ : BufTy).Contents (Elt F) :=
  (broadcastInDim S1600000x1 ![0] bcast_S1600000_S1600000x1_0 : (⟨S1600000, .f32⟩ : BufTy).Contents (Elt F) → (⟨S1600000x1, .f32⟩ : BufTy).Contents (Elt F)) nrm
def t_main_v40 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S1600000x64, .f32⟩ : BufTy).Contents (Elt F) :=
  (broadcastInDim S1600000x64 ![0, 1] bcast_S1600000x1_S1600000x64_0_1 : (⟨S1600000x1, .f32⟩ : BufTy).Contents (Elt F) → (⟨S1600000x64, .f32⟩ : BufTy).Contents (Elt F)) (t_main_v39 r cl dis nrm h)
def t_main_v41 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S1600000x64, .f32⟩ : BufTy).Contents (Elt F) :=
  (mulf : (⟨S1600000x64, .f32⟩ : BufTy).Contents (Elt F) → (⟨S1600000x64, .f32⟩ : BufTy).Contents (Elt F) → (⟨S1600000x64, .f32⟩ : BufTy).Contents (Elt F)) (t_main_v38 r cl dis nrm h) (t_main_v40 r cl dis nrm h)
def t_main_cst_10 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S_, .f32⟩ : BufTy).Contents (Elt F) :=
  (constant S_ .f32 0x00000000#32)
def t_main_v42 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S100000x64, .f32⟩ : BufTy).Contents (Elt F) :=
  (broadcastInDim S100000x64 ![] bcast_S_S100000x64 : (⟨S_, .f32⟩ : BufTy).Contents (Elt F) → (⟨S100000x64, .f32⟩ : BufTy).Contents (Elt F)) (t_main_cst_10 r cl dis nrm h)
def t_main_v43 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) cl
def t_main_v44 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S100000x64, .f32⟩ : BufTy).Contents (Elt F) :=
  ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) (t_main_v42 r cl dis nrm h) (t_main_v43 r cl dis nrm h) (t_main_v41 r cl dis nrm h)
def t_main_v45 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S100000, .f32⟩ : BufTy).Contents (Elt F) :=
  (mulf : (⟨S100000, .f32⟩ : BufTy).Contents (Elt F) → (⟨S100000, .f32⟩ : BufTy).Contents (Elt F) → (⟨S100000, .f32⟩ : BufTy).Contents (Elt F)) dis dis
def t_main_v46 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S100000x1, .f32⟩ : BufTy).Contents (Elt F) :=
  (broadcastInDim S100000x1 ![0] bcast_S100000_S100000x1_0 : (⟨S100000, .f32⟩ : BufTy).Contents (Elt F) → (⟨S100000x1, .f32⟩ : BufTy).Contents (Elt F)) (t_main_v45 r cl dis nrm h)
def t_main_v47 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S100000x64, .f32⟩ : BufTy).Contents (Elt F) :=
  (broadcastInDim S100000x64 ![0, 1] bcast_S100000x1_S100000x64_0_1 : (⟨S100000x1, .f32⟩ : BufTy).Contents (Elt F) → (⟨S100000x64, .f32⟩ : BufTy).Contents (Elt F)) (t_main_v46 r cl dis nrm h)
def t_main_v48 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S100000x64, .f32⟩ : BufTy).Contents (Elt F) :=
  (mulf : (⟨S100000x64, .f32⟩ : BufTy).Contents (Elt F) → (⟨S100000x64, .f32⟩ : BufTy).Contents (Elt F) → (⟨S100000x64, .f32⟩ : BufTy).Contents (Elt F)) (t_main_v47 r cl dis nrm h) h
def t_main_v49 (r : (⟨S1600000, .i32⟩ : BufTy).Contents (Elt F)) (cl : (⟨S1600000, .i32⟩ : BufTy).Contents (Elt F)) (dis : (⟨S100000, .f32⟩ : BufTy).Contents (Elt F)) (nrm : (⟨S1600000, .f32⟩ : BufTy).Contents (Elt F)) (h : (⟨S100000x64, .f32⟩ : BufTy).Contents (Elt F)) : (⟨S100000x64, .f32⟩ : BufTy).Contents (Elt F) :=
  (addf : (⟨S100000x64, .f32⟩ : BufTy).Contents (Elt F) → (⟨S100000x64, .f32⟩ : BufTy).Contents (Elt F) → (⟨S100000x64, .f32⟩ : BufTy).Contents (Elt F)) (t_main_v44 r cl dis nrm h) (t_main_v48 r cl dis nrm h)

end Cert.KernelIdeal.Host

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«170912_j32487132627457_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibDotBlocks.lean ====
/-
  A matrix product computed on blocks of its operands is the whole product there.

  At the ideal values — floats extended reals, every operation exact — a `tpu.matmul` into the zero
  accumulator and the host's `dot_general`, both with the plain dimension numbers "rows × contraction
  times contraction × columns", are the same sum over the contraction index.  So a block of rows of the
  left operand times a block of columns of the right operand, multiplied on the matrix unit, gives at its
  local index (p, q) the whole product's entry at (r, c), as soon as row p of the left block is row r of
  the whole left operand and column q of the right block is column c of the whole right operand.  The
  contraction is not blocked; no finiteness is used: both sides are one and the same sum.
-/
import proofs.«170912_j32487132627457_2_alg».proof.Proof.LibRowBlocks

noncomputable section

namespace Cert.Lib.DotBlocks

open Idealize.ShloMosaic Idealize.ShloMosaic.ValueIdx Cert.Lib.PlainDot Cert.Lib.RowBlocks

variable {M K N : Nat}

/-- A block of B rows of the left operand times a block of D columns of the right operand, into the zero
    accumulator: its entry at the local index (p, q) is the whole product's entry at (r, c), when row p of
    the left block is row r of the whole left operand and column q of the right block is column c of the
    whole right operand (the operands' float formats may differ between the blocks and the whole: at the
    ideal values every format is the extended reals). -/
theorem matmul_block_eq_dotGeneral {B D : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, D]⟩ φ₂) (p : Fin B) (q : Fin D) (r : Fin M) (c : Fin N)
    (hx : ∀ k : Fin K, (xb (ix2 p k) : EReal) = x (ix2 r k)) (hw : ∀ k : Fin K, (wb (ix2 k q) : EReal) = w (ix2 k c)) :
    matmul (DotDims.plain B K D) prec xb wb (constant (F := Ideal) ⟨2, ![B, D]⟩ .f32 0x00000000#32) (ix2 p q)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.DotBlocks

end
-- ==== Proof.KerDense.lean ====
/-
  The kernel's dense part.  The pallas_call walks 20 grid points; at point t it multiplies rows
  5000·t … 5000·t + 4999 of x by the whole 64 × 64 weight on the matrix unit (the bf16 casts are the identity
  at the ideal values) into a zero accumulator and writes the 5000 × 64 block back to rows 5000·t … of the
  output.  Entry (p, q) of that block is the sum over k of x (5000·t + p, k) · w (k, q): the whole product's
  entry.  The 20 blocks tile the 100000 rows, so after the region the output array is the whole product x · w.
-/
import proofs.«170912_j32487132627457_2_alg».proof.Proof.Gen.KernelIdeal.Frame
import proofs.«170912_j32487132627457_2_alg».proof.Proof.LibDotBlocks
import Idealize.ShloMosaic.Lib.Pipeline.Value
import Idealize.ShloMosaic.Lib.ValueIdx

set_option maxRecDepth 16384

noncomputable section

namespace Cert.KernelIdeal.Dense

open Cert.KernelIdeal Cert.KernelIdeal.Gen Idealize.ShloMosaic Idealize.ShloMosaic.TcCoe Idealize.ShloMosaic.ValueIdx
open Idealize.SL.Sem Idealize.ShloMosaic.Pipeline

/-- The whole product x · w, as the host spells it. -/
def prod (x : FVec Ideal S100000x64 .f32) (w : FVec Ideal S64x64 .f32) : FVec Ideal S100000x64 .f32 :=
  Host.dotGeneral (DotDims.plain 100000 64 64) none x w

/-- One block's product at a local index is the whole product's entry, when the block's rows are rows of x. -/
theorem block_entry (xb : Vec Ideal S5000x64 .f32) (wb : Vec Ideal S64x64 .f32)
    (x : FVec Ideal S100000x64 .f32) (w : FVec Ideal S64x64 .f32) (p : Fin 5000) (q : Fin 64) (r : Fin 100000)
    (hx : ∀ k : Fin 64, (xb (ix2 p k) : EReal) = x (ix2 r k)) (hw : ∀ k : Fin 64, (wb (ix2 k q) : EReal) = w (ix2 k q)) :
    k0_pay1 (F := Ideal) xb wb (ix2 p q) = prod x w (ix2 r q) := by
  unfold k0_pay1 prod
  exact Cert.Lib.DotBlocks.matmul_block_eq_dotGeneral (M := 100000) (K := 64) (N := 64) (B := 5000) (D := 64) none none x w
    (truncf .bf16 xb bitsLt_bf16_f32) (truncf .bf16 wb bitsLt_bf16_f32) p q r q hx hw

variable (m : (ℓ : Loc nD τ sig) → Buf (Elt Ideal) ℓ)

theorem zero_offsets : (![0, 0] : Fin 2 → Nat) = fun _ => 0 := funext fun a => by fin_cases a <;> rfl

/-- The printed index maps, decided over the 20 points: x's and the output's block at point t is block t of
    rows, the weight's the one whole block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays as the region finds them. -/
theorem written_block (c : Dev nD) (t : Fin cfg0.N) :
    (dats m 0 c).flushed 2 t
      = ((cfg0.win 2).blk t).view.read (Elt Ideal) (prod (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S5000x64) zero_offsets, View.ld_unit_zero (S := S64x64) zero_offsets]
  obtain ⟨e00, e01, e10, e11, e20, e21⟩ := block_indices t
  have ht : t.val < 20 := t.isLt
  funext j
  obtain ⟨p, q, rfl⟩ : ∃ (p : Fin 5000) (q : Fin 64), j = ix2 p q := ⟨j 0, j 1, eq_ix2 j⟩
  have hp : p.val < 5000 := p.isLt
  have hq : q.val < 64 := q.isLt
  have hemb : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  show k0_pay1 (F := Ideal) (iblk m c 0 t) (iblk m c 1 t) (ix2 p q)
    = prod (V m c main_arg0) (V m c main_arg1) (((cfg0.win 2).blk t).view.emb (ix2 p q))
  rw [hemb]
  refine block_entry _ _ (V m c main_arg0) (V m c main_arg1) p q _ (fun k => ?_) (fun k => ?_)
  · have hk : k.val < 64 := k.isLt
    show V m c main_arg0 (((cfg0.win 0).blk t).view.emb (ix2 p k)) = V m c main_arg0 (ix2 (⟨t.val * 5000 + p.val, by omega⟩ : Fin 100000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · have hk : k.val < 64 := k.isLt
    show V m c main_arg1 (((cfg0.win 1).blk t).view.emb (ix2 k q)) = V m c main_arg1 (ix2 k q)
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega

/-- An index of the output array is in point t's block iff each coordinate is in the block's range. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v31).slice (win0_2.rect t)).set ↔ _
  rw [View.set_slice_whole, Rect.mem_set_unit]
  exact Iff.rfl

/-- Every entry of the output lies in the block of the point its row's quotient by 5000 names. -/
theorem blocks_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 5000, by show (i 0).val / 5000 < 20; omega⟩, flush0_2 _, ?_⟩
  rw [mem_block]
  obtain ⟨e00, e01, e10, e11, e20, e21⟩ := block_indices ⟨(i 0).val / 5000, by show (i 0).val / 5000 < 20; omega⟩
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e21]; omega

/-- THE OUTPUT ARRAY AFTER THE REGION: the whole product of the two argument arrays. -/
theorem output (c : Dev nD) :
    (dats m 0 c).arrAt 2 cfg0.N
      = prod (m ((c : Thread nD τ).loc main_arg0)) (m ((c : Thread nD τ).loc main_arg1)) := by
  rw [← V_main_arg0 m c, ← V_main_arg1 m c]
  exact (dats m 0 c).arrAt_eq_of_cover 2 _ (fun t _ => written_block m c t) blocks_cover

end Cert.KernelIdeal.Dense

end
-- ==== Proof.KerRun.lean ====
/-
  The kernel program's run, read back.  The generated frame run states, for the result buffer, the host lines
  after the region applied to the buffers as the region leaves them: the region's output array where they read
  it, and what the lines before the region computed elsewhere.  Here each of those is named: the four buffers
  the tail reads from before the region are the stages of the arguments, the region's output is the whole
  product x · w, and so the result is one function `out` of the three arguments.
-/
import proofs.«170912_j32487132627457_2_alg».proof.Proof.Gen.KernelIdeal.Frame
import proofs.«170912_j32487132627457_2_alg».proof.Proof.KerStages
import proofs.«170912_j32487132627457_2_alg».proof.Proof.KerDense
import Idealize.ShloMosaic.Lib.StableHlo.Run
import Idealize.ShloMosaic.Lib.Pipeline.FrameSuffix

set_option maxRecDepth 16384

noncomputable section

namespace Cert.KernelIdeal.Host

open Cert.KernelIdeal Cert.KernelIdeal.Gen Idealize.ShloMosaic Idealize.ShloMosaic.TcCoe
open Idealize.SL.Sem Idealize.ShloMosaic.StableHlo Idealize.ShloMosaic.Pipeline

/-- The kernel program's result as a function of its three arguments: the host lines after the region over what
    the lines before it computed and the whole product. -/
def out (x0 : (⟨S100000x64, .f32⟩ : BufTy).Contents (Elt Ideal)) (x1 : (⟨S64x64, .f32⟩ : BufTy).Contents (Elt Ideal))
    (x2 : (⟨S2x1600000, .i32⟩ : BufTy).Contents (Elt Ideal)) : (⟨S100000x64, .f32⟩ : BufTy).Contents (Elt Ideal) :=
  t_main_v49 (F := Ideal) (p_main_v1 x0 x1 x2) (p_main_v3 x0 x1 x2) (p_main_v15 x0 x1 x2) (p_main_v30 x0 x1 x2)
    (Cert.KernelIdeal.Dense.prod x0 x1)

/-! ## What the region finds in the buffers the later lines read (at any float values) -/

section Found
variable {F : FTy → Type} [FloatOps F] (m : (ℓ : Loc nD τ sig) → Buf (Elt F) ℓ)

set_option maxHeartbeats 4000000 in
theorem found_v1 (c : Dev nD) :
    V0 m c (Proc.devRef .tc main_v1) = p_main_v1 (F := F) (m ((c : Thread nD τ).loc main_arg0)) (m ((c : Thread nD τ).loc main_arg1)) (m ((c : Thread nD τ).loc main_arg2)) := by
  dsimp only [V0]
  simp only [hostOps0, hostOps0_1, hostOps0_2, List.flatten_cons, List.flatten_nil, List.append_nil, List.cons_append, List.nil_append]
  after_results_simp
  rfl

set_option maxHeartbeats 4000000 in
theorem found_v3 (c : Dev nD) :
    V0 m c (Proc.devRef .tc main_v3) = p_main_v3 (F := F) (m ((c : Thread nD τ).loc main_arg0)) (m ((c : Thread nD τ).loc main_arg1)) (m ((c : Thread nD τ).loc main_arg2)) := by
  dsimp only [V0]
  simp only [hostOps0, hostOps0_1, hostOps0_2, List.flatten_cons, List.flatten_nil, List.append_nil, List.cons_append, List.nil_append]
  after_results_simp
  rfl

set_option maxHeartbeats 4000000 in
theorem found_v15 (c : Dev nD) :
    V0 m c (Proc.devRef .tc main_v15) = p_main_v15 (F := F) (m ((c : Thread nD τ).loc main_arg0)) (m ((c : Thread nD τ).loc main_arg1)) (m ((c : Thread nD τ).loc main_arg2)) := by
  dsimp only [V0]
  simp only [hostOps0, hostOps0_1, hostOps0_2, List.flatten_cons, List.flatten_nil, List.append_nil, List.cons_append, List.nil_append]
  after_results_simp
  rfl

set_option maxHeartbeats 4000000 in
theorem found_v30 (c : Dev nD) :
    V0 m c (Proc.devRef .tc main_v30) = p_main_v30 (F := F) (m ((c : Thread nD τ).loc main_arg0)) (m ((c : Thread nD τ).loc main_arg1)) (m ((c : Thread nD τ).loc main_arg2)) := by
  dsimp only [V0]
  simp only [hostOps0, hostOps0_1, hostOps0_2, List.flatten_cons, List.flatten_nil, List.append_nil, List.cons_append, List.nil_append]
  after_results_simp
  rfl

end Found

variable (m : (ℓ : Loc nD τ sig) → Buf (Elt Ideal) ℓ) (ρ : Dev nD → PrngReg)

/-! ## The result buffer after the later lines -/

set_option maxHeartbeats 4000000 in
theorem result (c : Dev nD) :
    Pipeline.afterTail₀ cfgs (dats m) 0 (V0 m) [hostOps1] c main_v49 = out (m ((c : Thread nD τ).loc main_arg0)) (m ((c : Thread nD τ).loc main_arg1)) (m ((c : Thread nD τ).loc main_arg2)) := by
  unfold Pipeline.afterTail₀
  show StableHlo.after hostOps1 _ (Proc.devRef .tc main_v49) = _
  after_results_simp
  rw [Pipeline.withArrays_of_ne spec0 c (V0 m c) _ main_v1 (by decide),
    Pipeline.withArrays_of_ne spec0 c (V0 m c) _ main_v3 (by decide),
    Pipeline.withArrays_of_ne spec0 c (V0 m c) _ main_v15 (by decide),
    Pipeline.withArrays_of_ne spec0 c (V0 m c) _ main_v30 (by decide),
    Pipeline.withArrays_arr spec0 launch0.win.arr_inj c (V0 m c) _ 2,
    found_v1, found_v3, found_v15, found_v30, Cert.KernelIdeal.Dense.output]
  rfl

/-! ## The run -/

section Kept
variable (r : PUnit × MemSt nD τ sig (Elt Ideal))
  (hr : Pipeline.FramePost cfgs (dats m) 0 (Pipeline.afterTail₀ cfgs (dats m) 0 (V0 m) [hostOps1]) r)
include hr

/-- x is an input window's array: it ends as the region found it, which is as launched. -/
theorem kept_arg0 (c : Dev nD) :
    r.2.mem ((c.tc : Thread nD τ).loc main_arg0) = m ((c.tc : Thread nD τ).loc main_arg0) := by
  have h1 := (hr c).1 0
  rw [(dats m 0 c).arrAt_in 0 rfl _, A_eq, V_main_arg0] at h1
  exact h1

/-- The weight likewise. -/
theorem kept_arg1 (c : Dev nD) :
    r.2.mem ((c.tc : Thread nD τ).loc main_arg1) = m ((c.tc : Thread nD τ).loc main_arg1) := by
  have h1 := (hr c).1 1
  rw [(dats m 0 c).arrAt_in 1 rfl _, A_eq, V_main_arg1] at h1
  exact h1

/-- The edge list is no window's array: it ends as the later lines leave it, and none of them writes it. -/
theorem kept_arg2 (c : Dev nD) :
    r.2.mem ((c.tc : Thread nD τ).loc main_arg2) = m ((c.tc : Thread nD τ).loc main_arg2) := by
  have h1 := (hr c).2 main_arg2 (Pipeline.mem_restRefs_of main_arg2 (by decide) (by decide))
  rw [W_main_arg2] at h1
  exact h1

/-- The result buffer is no window's array either: it ends at the later lines' result. -/
theorem result_mem (c : Dev nD) :
    r.2.mem ((c.tc : Thread nD τ).loc main_v49) = out (m ((c : Thread nD τ).loc main_arg0)) (m ((c : Thread nD τ).loc main_arg1)) (m ((c : Thread nD τ).loc main_arg2)) := by
  have h1 := (hr c).2 main_v49 (Pipeline.mem_restRefs_of main_v49 (by decide) (by decide))
  rw [result] at h1
  exact h1
end Kept

/-- At the ideal values, from any memory with zero counters: every weakly fair execution of the kernel program
    terminates with the result buffer at `out` of the arguments' launch contents, the arguments unchanged. -/
theorem run : θ_run defs (onTc (τ := τ) (main (F := Ideal))) ⟨m, fun _ => 0, ρ⟩ fun r => ∀ c : Dev nD,
      r.2.mem ((c.tc : Thread nD τ).loc main_v49) = out (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨result_mem m r h c, kept_arg0 m r h c, kept_arg1 m r h c, kept_arg2 m r h c⟩)
    (run_main m ρ)

end Cert.KernelIdeal.Host

end
-- ==== Proof.LibIdxSums.lean ====
/-
  Sums over the entries of a vector and of a one-row matrix.

  An index of a vector of n entries is its one coordinate, and an index of a matrix [1, n] is its column (the row
  coordinate can only be 0). So a sum over all entries of such an array, in any commutative additive monoid, is the
  sum over the n positions: what a total sum of an array of shape [n] or [1, n] comes to, entry by entry.
-/
import Idealize.ShloMosaic.Lib.ValueIdx
import Mathlib.Algebra.BigOperators.Fin

noncomputable section

namespace Cert.Lib.IdxSums

open Idealize.ShloMosaic Idealize.ShloMosaic.ValueIdx
open scoped BigOperators

/-- A sum over the indices of a vector of n entries is the sum over its n positions. -/
theorem sum_idx1 {M : Type*} [AddCommMonoid M] {n : Nat} (f : (⟨1, ![n]⟩ : Shape).Idx → M) :
    ∑ j, f j = ∑ e : Fin n, f (ix1 e) :=
  Fintype.sum_equiv ⟨fun j => j 0, ix1, fun j => (eq_ix1 j).symm, fun _ => rfl⟩ f (fun e => f (ix1 e))
    (fun j => congrArg f (eq_ix1 j))

/-- A sum over the indices of a one-row matrix of n entries is the sum over its n columns. -/
theorem sum_row {M : Type*} [AddCommMonoid M] {n : Nat} (f : (⟨2, ![1, n]⟩ : Shape).Idx → M) :
    ∑ i, f i = ∑ e : Fin n, f (ix2 (0 : Fin 1) e) := by
  rw [sum_idx2, Fin.sum_univ_one]

end Cert.Lib.IdxSums

end
-- ==== Proof.LibScatterAdd.lean ====
/-
  The host's accumulating scatter (a segment sum) read at an index, at the ideal values.

  For an operand of N entries, a column of scatter indices `idx : [E, 1]` and E updates, the scatter with
  inserted window axis 0, scatter-dims-to-operand-dims [0] and index-vector axis 1 adds update e into the
  entry that the index word `idx[e, 0]`, read signed, names; an update whose word names no entry (negative,
  or N and beyond) is dropped — a scatter does not clamp.  At the ideal values the result at entry i is the
  operand's entry plus the plain sum, over all e, of the updates whose word names i: no order of addition is
  left in it.  The row form does the same for an [N, C] operand and [E, C] updates (update window axis 1):
  row e of the updates is added into the row its word names, lane by lane.
-/
import Idealize.ShloMosaic.Lib.ValueIdx
import Idealize.ShloMosaic.PureOps.Ideal
import Mathlib.Algebra.BigOperators.Fin
import proofs.«170912_j32487132627457_2_alg».proof.Proof.LibIdxSums

noncomputable section

namespace Cert.Lib.ScatterAdd

open Idealize.ShloMosaic Idealize.ShloMosaic.ValueIdx
open scoped BigOperators

/-- The dimension numbers of an entry scatter into a vector [N] at scatter indices [E, 1] of updates [E]; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a row scatter into a table [N, C] at scatter indices [E, 1] of updates [E, C]. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- Update e of an entry scatter lands at the position its index word, read signed, names. -/
theorem vec_landing (idx : IVec ⟨2, ![E, 1]⟩ w) (e : Fin E) (a : Fin 1) :
    (vecDims N E wf).start (ix1 e) idx a + ((vecDims N E wf).window (ix1 e) a : Int)
      = (idx (ix2 e (0 : Fin 1))).toInt := by
  obtain rfl : a = 0 := Subsingleton.elim _ _
  have h1 : (vecDims N E wf).start (ix1 e) idx 0 = (idx (ix2 e (0 : Fin 1))).toInt := by
    unfold ScatterDims.start
    rw [dif_pos (show (0 : Fin 1) ∈ (vecDims N E wf).scatterDimsToOperandDims from List.mem_singleton.mpr rfl)]
    have hsi : (vecDims N E wf).siIdx (ix1 e) ⟨List.idxOf (0 : Fin 1) (vecDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (vecDims N E wf).window (ix1 e) 0 = 0 := by
    unfold ScatterDims.window
    rw [dif_neg (fun h => by simp [Shape.kept] at h)]
  rw [h1, h2]; simp

/-- Update e lands on entry i exactly when its index word, read signed, is i. -/
theorem vec_resultIdx_iff (idx : IVec ⟨2, ![E, 1]⟩ w) (e : Fin E) (i : (⟨1, ![N]⟩ : Shape).Idx) :
    (vecDims N E wf).resultIdx? (ix1 e) idx = some i ↔ (idx (ix2 e (0 : Fin 1))).toInt = ((i 0).val : Int) := by
  unfold ScatterDims.resultIdx?
  split
  · next h =>
    rw [Option.some.injEq]
    constructor
    · intro hf
      have h0 := congrArg (fun g : (⟨1, ![N]⟩ : Shape).Idx => (g 0).val) hf
      simp only at h0
      have hl := vec_landing wf idx e 0
      have hp := (h 0).1
      rw [hl] at h0 hp
      omega
    · intro hv
      funext a
      obtain rfl : a = 0 := Subsingleton.elim _ _
      refine Fin.ext ?_
      show ((vecDims N E wf).start (ix1 e) idx 0 + ((vecDims N E wf).window (ix1 e) 0 : Int)).toNat = (i 0).val
      rw [vec_landing wf idx e 0, hv]; simp
  · next h =>
    constructor
    · intro hf; cases hf
    · intro hv
      exfalso; apply h
      intro a
      obtain rfl : a = 0 := Subsingleton.elim _ _
      rw [vec_landing wf idx e 0, hv]
      exact ⟨Int.natCast_nonneg _, by exact_mod_cast (i 0).isLt⟩

/-- THE ENTRY SCATTER-ADD READ AT i: the operand's entry plus the sum of the updates whose word names i. -/
theorem scatterAdd_vec_apply {φ : FTy} (x : FVec Ideal ⟨1, ![N]⟩ φ) (idx : IVec ⟨2, ![E, 1]⟩ w)
    (upd : FVec Ideal ⟨1, ![E]⟩ φ) (i : (⟨1, ![N]⟩ : Shape).Idx) :
    (Host.scatterAdd (vecDims N E wf) x idx upd i : EReal)
      = x i + ∑ e : Fin E, if (idx (ix2 e (0 : Fin 1))).toInt = ((i 0).val : Int) then (upd (ix1 e) : EReal) else 0 := by
  show Ideal.hostScatterAdd (vecDims N E wf) x idx upd i = _
  unfold Ideal.hostScatterAdd
  congr 1
  rw [Finset.sum_filter]
  rw [Cert.Lib.IdxSums.sum_idx1]
  refine Finset.sum_congr rfl fun e _ => ?_
  simp only [vec_resultIdx_iff wf idx e i]

end Vec

section Row
variable {N E C w : Nat} (wf : ScatterDims.WF ⟨2, ![N, C]⟩ ⟨2, ![E, 1]⟩ ⟨2, ![E, C]⟩ [1] [0] [0] 1)

/-- Row e of the updates lands in the row its index word, read signed, names… -/
theorem row_landing0 (idx : IVec ⟨2, ![E, 1]⟩ w) (e : Fin E) (q : Fin C) :
    (rowDims N E C wf).start (ix2 e q) idx 0 + ((rowDims N E C wf).window (ix2 e q) 0 : Int)
      = (idx (ix2 e (0 : Fin 1))).toInt := by
  have h1 : (rowDims N E C wf).start (ix2 e q) idx 0 = (idx (ix2 e (0 : Fin 1))).toInt := by
    unfold ScatterDims.start
    rw [dif_pos (show (0 : Fin 2) ∈ (rowDims N E C wf).scatterDimsToOperandDims from List.mem_singleton.mpr rfl)]
    have hsi : (rowDims N E C wf).siIdx (ix2 e q) ⟨List.idxOf (0 : Fin 2) (rowDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (rowDims N E C wf).window (ix2 e q) 0 = 0 := by
    unfold ScatterDims.window
    rw [dif_neg (fun h => by simp [Shape.kept] at h)]
  rw [h1, h2]; simp

/-- …lane for lane. -/
theorem row_landing1 (idx : IVec ⟨2, ![E, 1]⟩ w) (e : Fin E) (q : Fin C) :
    (rowDims N E C wf).start (ix2 e q) idx 1 + ((rowDims N E C wf).window (ix2 e q) 1 : Int) = (q.val : Int) := by
  have h1 : (rowDims N E C wf).start (ix2 e q) idx 1 = 0 := by
    unfold ScatterDims.start
    rw [dif_neg (fun h => absurd (show (1 : Nat) = 0 from congrArg Fin.val (List.mem_singleton.mp h)) Nat.one_ne_zero)]
  have h2 : (rowDims N E C wf).window (ix2 e q) 1 = q.val := by
    unfold ScatterDims.window
    rw [dif_pos (show (1 : Fin 2) ∈ (rowDims N E C wf).sKept by simp [Shape.kept])]
    rfl
  rw [h1, h2]; simp

/-- Update (e, q) lands on entry (r, c) exactly when its row's index word, read signed, is r and q = c. -/
theorem row_resultIdx_iff (idx : IVec ⟨2, ![E, 1]⟩ w) (e : Fin E) (q : Fin C) (r : Fin N) (c : Fin C) :
    (rowDims N E C wf).resultIdx? (ix2 e q) idx = some (ix2 r c)
      ↔ (idx (ix2 e (0 : Fin 1))).toInt = (r.val : Int) ∧ q = c := by
  unfold ScatterDims.resultIdx?
  split
  · next h =>
    rw [Option.some.injEq]
    constructor
    · intro hf
      have h0 := congrArg (fun g : (⟨2, ![N, C]⟩ : Shape).Idx => (g 0).val) hf
      have h1 := congrArg (fun g : (⟨2, ![N, C]⟩ : Shape).Idx => (g 1).val) hf
      simp only at h0 h1
      have hp := (h 0).1
      rw [row_landing0 wf idx e q] at h0 hp
      rw [row_landing1 wf idx e q] at h1
      refine ⟨?_, Fin.ext ?_⟩
      · change ((idx (ix2 e (0 : Fin 1))).toInt).toNat = r.val at h0
        omega
      · change ((q.val : Int)).toNat = c.val at h1
        omega
    · rintro ⟨hv, rfl⟩
      funext a
      refine Fin.ext ?_
      match a with
      | ⟨0, _⟩ =>
        show ((rowDims N E C wf).start (ix2 e q) idx 0 + ((rowDims N E C wf).window (ix2 e q) 0 : Int)).toNat = r.val
        rw [row_landing0 wf idx e q, hv]; simp
      | ⟨1, _⟩ =>
        show ((rowDims N E C wf).start (ix2 e q) idx 1 + ((rowDims N E C wf).window (ix2 e q) 1 : Int)).toNat = q.val
        rw [row_landing1 wf idx e q]; simp
  · next h =>
    constructor
    · intro hf; cases hf
    · rintro ⟨hv, rfl⟩
      exfalso; apply h
      intro a
      match a with
      | ⟨0, _⟩ =>
        show 0 ≤ (rowDims N E C wf).start (ix2 e q) idx 0 + ((rowDims N E C wf).window (ix2 e q) 0 : Int)
          ∧ (rowDims N E C wf).start (ix2 e q) idx 0 + ((rowDims N E C wf).window (ix2 e q) 0 : Int) < (N : Int)
        rw [row_landing0 wf idx e q, hv]
        exact ⟨Int.natCast_nonneg _, by exact_mod_cast r.isLt⟩
      | ⟨1, _⟩ =>
        show 0 ≤ (rowDims N E C wf).start (ix2 e q) idx 1 + ((rowDims N E C wf).window (ix2 e q) 1 : Int)
          ∧ (rowDims N E C wf).start (ix2 e q) idx 1 + ((rowDims N E C wf).window (ix2 e q) 1 : Int) < (C : Int)
        rw [row_landing1 wf idx e q]
        exact ⟨Int.natCast_nonneg _, by exact_mod_cast q.isLt⟩

/-- THE ROW SCATTER-ADD READ AT (r, c): the operand's entry plus the sum, over the update rows whose word names
    row r, of their lane c. -/
theorem scatterAdd_rows_apply {φ : FTy} (x : FVec Ideal ⟨2, ![N, C]⟩ φ) (idx : IVec ⟨2, ![E, 1]⟩ w)
    (upd : FVec Ideal ⟨2, ![E, C]⟩ φ) (r : Fin N) (c : Fin C) :
    (Host.scatterAdd (rowDims N E C wf) x idx upd (ix2 r c) : EReal)
      = x (ix2 r c)
        + ∑ e : Fin E, if (idx (ix2 e (0 : Fin 1))).toInt = (r.val : Int) then (upd (ix2 e c) : EReal) else 0 := by
  show Ideal.hostScatterAdd (rowDims N E C wf) x idx upd (ix2 r c) = _
  unfold Ideal.hostScatterAdd
  congr 1
  rw [Finset.sum_filter, sum_idx2]
  refine Finset.sum_congr rfl fun e _ => ?_
  simp only [row_resultIdx_iff wf idx e _ r c]
  by_cases hv : (idx (ix2 e (0 : Fin 1))).toInt = (r.val : Int)
  · simp only [hv, true_and, if_true]
    rw [Finset.sum_ite_eq' Finset.univ c (fun q => (upd (ix2 e q) : EReal))]
    simp
  · simp only [hv, false_and, if_false, Finset.sum_const_zero]

end Row

end Cert.Lib.ScatterAdd

end
-- ==== Proof.LibRowGather.lean ====
/-
  Gathering whole rows of a table.  For a table `x : [N, C]` and a column of start indices `idx : [E, 1]`,
  the gather with offset axis 1, collapsed axis 0, start-index map [0], index-vector axis 1 and slices of one
  row ([1, C]) reads, at result index (e, j), the table at row `idx[e, 0]` — the index word read signed and
  clamped into [0, N - 1], as every gather clamps its start indices — and column j.  This is what `x[idx]`
  of a two-axis table at a flat integer array lowers to.
-/
import Idealize.ShloMosaic.Lib.ValueIdx

noncomputable section

namespace Idealize.ShloMosaic.RowGather

open Idealize.ShloMosaic Idealize.ShloMosaic.ValueIdx

variable {α : Type}

/-- The dimension numbers of a row gather from a table [N, C] at start indices [E, 1] into [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word names in a table of `N` rows: the word read signed, clamped into [0, N - 1]. -/
def clampRow (N : Nat) (hN : 0 < N) {w : Nat} (v : BitVec w) : Fin N :=
  ⟨min v.toInt.toNat (N - 1), by omega⟩

/-- THE ROW GATHER READ AT (e, j): the table at the clamped row `idx[e, 0]` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 (clampRow N hN (idx (ix2 e (0 : Fin 1)))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    unfold GatherDims.start
    rw [dif_neg (show (1 : Fin 2) ∉ (rowDims N E C wf).startIndexMap from
      fun h => absurd (show (1 : Nat) = 0 from congrArg Fin.val (List.mem_singleton.mp h)) Nat.one_ne_zero)]
    unfold GatherDims.offCoord
    rw [dif_pos (show (1 : Fin 2) ∈ (rowDims N E C wf).sKept from (GatherDims.mem_sKept _ _).mpr
      ⟨fun h => absurd (show (1 : Nat) = 0 from congrArg Fin.val (List.mem_singleton.mp h)) Nat.one_ne_zero, List.not_mem_nil⟩)]
    simp only [Nat.zero_add]
    rfl

end Idealize.ShloMosaic.RowGather

end
-- ==== Proof.LibVecGather.lean ====
/-
  Gathering single entries of a vector.  For a vector `x : [N]` and a column of start indices `idx : [E, 1]`,
  the gather with no offset axis, collapsed axis 0, start-index map [0], index-vector axis 1 and slices of one
  entry ([1]) reads, at result index e, the vector at `idx[e, 0]` — the index word read signed and clamped into
  [0, N - 1], as every gather clamps its start indices.  This is what `x[idx]` of a one-axis array at a flat
  integer array lowers to; the clamped entry is the same `clampRow` a row gather of an [N, C] table takes.
-/
import proofs.«170912_j32487132627457_2_alg».proof.Proof.LibRowGather

noncomputable section

namespace Idealize.ShloMosaic.VecGather

open Idealize.ShloMosaic Idealize.ShloMosaic.ValueIdx Idealize.ShloMosaic.RowGather

variable {α : Type}

/-- The dimension numbers of an entry gather from a vector [N] at start indices [E, 1] into [E]; their
    conditions `wf` are decided on a program's literal shapes. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the vector at the clamped entry `idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.VecGather

end
-- ==== Proof.LibHostColumns.lean ====
/-
  A per-row value spread over the lanes by the host.  The host turns a vector [a] into the column [a, 1] by a
  broadcast onto axis 0, and spreads the column over b lanes by a broadcast onto axes 0 and 1.  Read at an
  index, the column at (i, 0) is the vector at i, and the spread array at (p, c) is the column at (p, 0): every
  lane of row p sees row p's value.  General facts, for any extents and entry type.
-/
import Idealize.ShloMosaic.Lib.Pipeline.Value
import Idealize.ShloMosaic.Lib.ValueIdx

noncomputable section

namespace Cert.Lib.HostColumns

open Idealize.ShloMosaic Idealize.ShloMosaic.ValueIdx

variable {α : Type}

/-- A vector [a] broadcast onto axis 0 of the column [a, 1] reads, at (i, u), the vector at i. -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) (fun ax => ?_)
  match ax with
  | ⟨0, _⟩ =>
    show i.val = if a = 1 then 0 else i.val
    split
    · have := i.isLt; omega
    · rfl

/-- A column [a, 1] broadcast onto axes 0, 1 of [a, b] reads, at (p, c), the column at row p. -/
theorem bcast_col_lanes_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) (u : Fin 1) :
    broadcastInDim ⟨2, ![a, b]⟩ (![0, 1] : Fin 2 → Fin 2) h v (ix2 p c) = v (ix2 p u) := by
  refine broadcastInDim_apply (![0, 1] : Fin 2 → Fin 2) h v (ix2 p c) (ix2 p u) (fun ax => ?_)
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.HostColumns

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibGraphOps.lean ====
/-
  The host operations of a message-passing layer read at an index, for any extents.

  A graph layer on the host is built from a handful of composite steps, and each of them, read at an index, is a
  plain expression of its operands at indices:
    · a row of the [2, E] edge list, sliced out and flattened, at e is the edge list at (row, e);
    · jnp's indexing first wraps a negative index word around (w < 0 ↦ w + n), then a gather clamps it;
    · a per-edge value [M] made a column [M, 1] and spread over C lanes reads, at (e, c), the value at e;
    · a segment sum of constant updates into a constant array (the degree count) at i is the constant plus the
      sum, over the edges whose index word names i, of the update constant;
    · a segment sum of rows into a constant array (the aggregation) at (r, c) is the constant plus the sum,
      over the edges whose index word names r, of lane c of the edge's row;
    · the "where(d > 0, rsqrt(max(d, eps)), 0)" chain at i is one scalar function of d at i.
  The sums are exact sums on the extended reals: nothing depends on the order of the edges.
-/
import Idealize.ShloMosaic.Lib.ValueIdx
import Idealize.ShloMosaic.Lib.Pipeline.Value
import Idealize.ShloMosaic.PureOps.Ideal.Laws
import proofs.«170912_j32487132627457_2_alg».proof.Proof.LibScatterAdd
import proofs.«170912_j32487132627457_2_alg».proof.Proof.LibVecGather
import proofs.«170912_j32487132627457_2_alg».proof.Proof.LibHostColumns
import proofs.«170912_j32487132627457_2_alg».proof.Proof.LibRowBroadcast
import proofs.«170912_j32487132627457_2_alg».proof.Proof.LibRows

noncomputable section

namespace Cert.Lib.GraphOps

open Idealize.ShloMosaic Idealize.ShloMosaic.ValueIdx Idealize.ShloMosaic.RowGather
open Cert.Lib.HostColumns Cert.Lib.RowBroadcast Cert.Lib.ScatterAdd
open scoped BigOperators

/-- jnp's index normalisation on one word: a negative index counts from the end of an axis of extent n. -/
def wrapIdx (n : Nat) (v : BitVec 32) : BitVec 32 :=
  Scalar.select (IntOp.cmpi .slt v 0#32) (IntOp.addi v (BitVec.ofNat 32 n)) v

/-- The inverse square root of a degree, guarded as the layer guards it: 0 unless the degree is positive. -/
def invSqrtDeg (d : EReal) : EReal :=
  Scalar.select (FloatOps.cmpf (F := Ideal) (φ := .f32) .ogt d (Ideal.ofBits .f32 0x00000000#32))
    (FloatOps.hostUnary (F := Ideal) (φ := .f32) .rsqrt (FloatOps.maximumf (F := Ideal) (φ := .f32) d (Ideal.ofBits .f32 0x2B8CBCCC#32)))
    (Ideal.ofBits .f32 0x00000000#32)

section
variable {α : Type}

/-- Row o of the [2, E] edge list, sliced out as [1, E] and flattened to [E], at e: the edge list at (o, e). -/
theorem edge_row_apply {E : Nat} (o : Nat) (ho : o < 2) (x : (⟨2, ![2, E]⟩ : Shape).Idx → α)
    (hs : (⟨2, ![2, E]⟩ : Shape).Slices ![o, 0] ⟨2, ![1, E]⟩) (hc : (⟨2, ![1, E]⟩ : Shape).ShapeCasts ⟨1, ![E]⟩) (e : Fin E) :
    shapeCast ⟨1, ![E]⟩ (extractStridedSlice ⟨2, ![1, E]⟩ ![o, 0] x hs) hc (ix1 e) = x (ix2 (⟨o, ho⟩ : Fin 2) e) := by
  rw [shapeCast_apply _ hc (ix1 e) (ix2 (0 : Fin 1) e) (by
    rewrite [Shape.rowMajor_val_two, Shape.rowMajor_val_one]; show 0 * E + e.val = e.val; omega)]
  rw [Cert.Lib.Rows.slice_rows_apply x hs 0 e (by show o + 0 < 2; omega)]
  rfl

/-- A per-edge value made a column and spread over the lanes reads, at (e, c), the value at e. -/
theorem spread_apply {M C : Nat} (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, C]⟩ (![0, 1] : Fin 2 → Fin 2)) (e : Fin M) (c : Fin C) :
    broadcastInDim ⟨2, ![M, C]⟩ (![0, 1] : Fin 2 → Fin 2) h2 (broadcastInDim ⟨2, ![M, 1]⟩ (![0] : Fin 1 → Fin 2) h1 v) (ix2 e c)
      = v (ix1 e) := by
  rw [bcast_col_lanes_apply _ h2 e c 0, bcast_vec_col_apply v h1 e 0]
end

/-- The wrapped index words as a column [M, 1], at (e, 0): the word at e, wrapped. -/
theorem wrapped_col_apply {M : Nat} (n : Nat) (w : IVec ⟨1, ![M]⟩ 32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2)) (e : Fin M) :
    broadcastInDim ⟨2, ![M, 1]⟩ (![0] : Fin 1 → Fin 2) h1
        (select (cmpi .slt w (broadcastInDim ⟨1, ![M]⟩ (![] : Fin 0 → Fin 1) h0 (constantI ⟨0, ![]⟩ 32 0#32)))
          (addi w (broadcastInDim ⟨1, ![M]⟩ (![] : Fin 0 → Fin 1) h0 (constantI ⟨0, ![]⟩ 32 (BitVec.ofNat 32 n)))) w)
        (ix2 e (0 : Fin 1))
      = wrapIdx n (w (ix1 e)) := by
  rw [bcast_vec_col_apply _ h1 e 0]
  show Scalar.select (IntOp.cmpi .slt (w (ix1 e))
        (broadcastInDim ⟨1, ![M]⟩ (![] : Fin 0 → Fin 1) h0 (constantI ⟨0, ![]⟩ 32 0#32) (ix1 e)))
      (IntOp.addi (w (ix1 e))
        (broadcastInDim ⟨1, ![M]⟩ (![] : Fin 0 → Fin 1) h0 (constantI ⟨0, ![]⟩ 32 (BitVec.ofNat 32 n)) (ix1 e)))
      (w (ix1 e)) = _
  rw [broadcastInDim_scalar_apply (constantI ⟨0, ![]⟩ 32 0#32) h0 (ix1 e) ix0,
    broadcastInDim_scalar_apply (constantI ⟨0, ![]⟩ 32 (BitVec.ofNat 32 n)) h0 (ix1 e) ix0]
  rfl

/-- THE DEGREE COUNT: a segment sum of the constant `ow` per edge into the constant `zw`, at node i. -/
theorem count_apply {N M : Nat} (wf : ScatterDims.WF ⟨1, ![N]⟩ ⟨2, ![M, 1]⟩ ⟨1, ![M]⟩ [] [0] [0] 1)
    (h0N : (⟨0, ![]⟩ : Shape).BroadcastsInDim ⟨1, ![N]⟩ (![] : Fin 0 → Fin 1))
    (h0M : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (w : IVec ⟨1, ![M]⟩ 32) (zw ow : BitVec 32) (i : Fin N) :
    (Host.scatterAdd (vecDims N M wf)
        (broadcastInDim ⟨1, ![N]⟩ (![] : Fin 0 → Fin 1) h0N (constant (F := Ideal) ⟨0, ![]⟩ .f32 zw))
        (broadcastInDim ⟨2, ![M, 1]⟩ (![0] : Fin 1 → Fin 2) h1 w)
        (broadcastInDim ⟨1, ![M]⟩ (![] : Fin 0 → Fin 1) h0M (constant (F := Ideal) ⟨0, ![]⟩ .f32 ow)) (ix1 i) : EReal)
      = Ideal.ofBits .f32 zw + ∑ e : Fin M, if (w (ix1 e)).toInt = (i.val : Int) then Ideal.ofBits .f32 ow else 0 := by
  rw [scatterAdd_vec_apply wf]
  rw [broadcastInDim_scalar_apply (constant (F := Ideal) ⟨0, ![]⟩ .f32 zw) h0N (ix1 i) ix0]
  refine congrArg₂ (fun a b : EReal => a + b) rfl (Finset.sum_congr rfl fun e _ => ?_)
  rw [bcast_vec_col_apply w h1 e 0,
    broadcastInDim_scalar_apply (constant (F := Ideal) ⟨0, ![]⟩ .f32 ow) h0M (ix1 e) ix0]
  rfl

/-- THE AGGREGATION: a segment sum of per-edge rows into the constant `zw`, at (r, c). -/
theorem aggregate_apply {N M C : Nat} (wf : ScatterDims.WF ⟨2, ![N, C]⟩ ⟨2, ![M, 1]⟩ ⟨2, ![M, C]⟩ [1] [0] [0] 1)
    (h0 : (⟨0, ![]⟩ : Shape).BroadcastsInDim ⟨2, ![N, C]⟩ (![] : Fin 0 → Fin 2))
    (h1 : (⟨1, ![M]⟩ : Shape).BroadcastsInDim ⟨2, ![M, 1]⟩ (![0] : Fin 1 → Fin 2))
    (w : IVec ⟨1, ![M]⟩ 32) (upd : FVec Ideal ⟨2, ![M, C]⟩ .f32) (zw : BitVec 32) (r : Fin N) (c : Fin C) :
    (Host.scatterAdd (rowDims N M C wf)
        (broadcastInDim ⟨2, ![N, C]⟩ (![] : Fin 0 → Fin 2) h0 (constant (F := Ideal) ⟨0, ![]⟩ .f32 zw))
        (broadcastInDim ⟨2, ![M, 1]⟩ (![0] : Fin 1 → Fin 2) h1 w) upd (ix2 r c) : EReal)
      = Ideal.ofBits .f32 zw + ∑ e : Fin M, if (w (ix1 e)).toInt = (r.val : Int) then (upd (ix2 e c) : EReal) else 0 := by
  rw [scatterAdd_rows_apply wf]
  rw [broadcastInDim_scalar_apply (constant (F := Ideal) ⟨0, ![]⟩ .f32 zw) h0 (ix2 r c) ix0]
  refine congrArg₂ (fun a b : EReal => a + b) rfl (Finset.sum_congr rfl fun e _ => ?_)
  rw [bcast_vec_col_apply w h1 e 0]

/-- The guarded inverse square root of the degrees, at node i: `invSqrtDeg` of the degree at i. -/
theorem invSqrtDeg_apply {N : Nat} (h0 : (⟨0, ![]⟩ : Shape).BroadcastsInDim ⟨1, ![N]⟩ (![] : Fin 0 → Fin 1))
    (d : FVec Ideal ⟨1, ![N]⟩ .f32) (i : Fin N) :
    (select (cmpf .ogt d (broadcastInDim ⟨1, ![N]⟩ (![] : Fin 0 → Fin 1) h0 (constant (F := Ideal) ⟨0, ![]⟩ .f32 0x00000000#32)))
        (Host.rsqrt (maximumf d (broadcastInDim ⟨1, ![N]⟩ (![] : Fin 0 → Fin 1) h0 (constant (F := Ideal) ⟨0, ![]⟩ .f32 0x2B8CBCCC#32))))
        (broadcastInDim ⟨1, ![N]⟩ (![] : Fin 0 → Fin 1) h0 (constant (F := Ideal) ⟨0, ![]⟩ .f32 0x00000000#32)) (ix1 i) : EReal)
      = invSqrtDeg (d (ix1 i)) := by
  show Scalar.select (FloatOps.cmpf .ogt (d (ix1 i))
        (broadcastInDim ⟨1, ![N]⟩ (![] : Fin 0 → Fin 1) h0 (constant (F := Ideal) ⟨0, ![]⟩ .f32 0x00000000#32) (ix1 i)))
      (FloatOps.hostUnary .rsqrt (FloatOps.maximumf (d (ix1 i))
        (broadcastInDim ⟨1, ![N]⟩ (![] : Fin 0 → Fin 1) h0 (constant (F := Ideal) ⟨0, ![]⟩ .f32 0x2B8CBCCC#32) (ix1 i))))
      (broadcastInDim ⟨1, ![N]⟩ (![] : Fin 0 → Fin 1) h0 (constant (F := Ideal) ⟨0, ![]⟩ .f32 0x00000000#32) (ix1 i)) = _
  rw [broadcastInDim_scalar_apply (constant (F := Ideal) ⟨0, ![]⟩ .f32 0x00000000#32) h0 (ix1 i) ix0,
    broadcastInDim_scalar_apply (constant (F := Ideal) ⟨0, ![]⟩ .f32 0x2B8CBCCC#32) h0 (ix1 i) ix0]
  rfl

end Cert.Lib.GraphOps

end
-- ==== Proof.Layer.lean ====
/-
  The graph layer's mathematics: two arrangements of one sum.

  Data: the transformed features h : 100000 nodes × 64 lanes (extended reals), and for each of the 1600000 edges
  a source word and a target word (32-bit patterns, read signed).  An index word names a node in two ways: for
  a segment sum, the word itself — if it is no node number the edge is dropped —; for a lookup, the word
  wrapped around when negative and then clamped (`node`).

  THE KERNEL'S ARRANGEMENT.  deg i = (0 + #{edges with source word i}) + 1, d = invSqrtDeg ∘ deg, and
    out (r, c) = (0 + Σ over edges with target word r of h (node src, c) · (d (node src) · d (node tgt)))
                 + (d r · d r) · h (r, c):
  the self loop of every node is added as a dense term.

  THE REFERENCE'S ARRANGEMENT.  The 100000 self loops are appended to the edge list as edges 1600000 + j with
  source = target = the number j, every edge weighs 1.0, and everything is one segment sum over 1700000 edges:
    deg' i = 0 + Σ over the 1700000 edges with source word i of 1,
    out' (r, c) = 0 + Σ over the 1700000 edges with target word r of h (node src, c) · ((d' (node src) · 1) · d' (node tgt)).

  They agree: a sum over the 1700000 edges is the sum over the first 1600000 plus the sum over the 100000 loops;
  among the loops exactly loop r has target (and source) word r, and its word names node r; multiplying by the
  weight 1.0 changes nothing; and + and · on the extended reals are associative and commutative.  No
  distributivity, no cancellation: nothing here needs the inputs finite.
-/
import Idealize.ShloMosaic.PureOps.Ideal.Laws
import Mathlib.Algebra.BigOperators.Fin
import proofs.«170912_j32487132627457_2_alg».proof.Proof.LibGraphOps

noncomputable section

namespace Cert.Layer

open Idealize.ShloMosaic Idealize.ShloMosaic.RowGather Idealize.ShloMosaic.ValueIdx Cert.Lib.GraphOps
open scoped BigOperators

/-- The edge weight 1.0 and the initial value 0.0, as the programs spell them. -/
def one : EReal := Ideal.ofBits .f32 0x3F800000#32
def zero : EReal := Ideal.ofBits .f32 0x00000000#32

theorem one_eq : one = 1 := by
  unfold one
  simp [Ideal.ofBits, Ideal.ieee, -EReal.coe_mul]; norm_num

/-- The node a looked-up index word names: wrapped around when negative, then clamped into the node range. -/
def node (v : BitVec 32) : Fin 100000 := clampRow 100000 (by decide) (wrapIdx 100000 v)

/-- The source words of the real edges are row 0 of the [2, 1600000] edge list, the target words row 1. -/
def srcWords (x2 : (⟨2, ![2, 1600000]⟩ : Shape).Idx → BitVec 32) (e : Fin 1600000) : BitVec 32 := x2 (ix2 (0 : Fin 2) e)
def tgtWords (x2 : (⟨2, ![2, 1600000]⟩ : Shape).Idx → BitVec 32) (e : Fin 1600000) : BitVec 32 := x2 (ix2 (1 : Fin 2) e)

/-! ## The number j as an index word -/

theorem toInt_ofNat_lt (j : Nat) (h : j < 100000) : (BitVec.ofNat 32 j).toInt = (j : Int) := by
  have h1 : (BitVec.ofNat 32 j).toNat = j := by
    rw [BitVec.toNat_ofNat]; exact Nat.mod_eq_of_lt (by omega)
  rw [BitVec.toInt_eq_toNat_cond, h1, if_pos (by omega)]

theorem wrapIdx_ofNat (j : Nat) (h : j < 100000) : wrapIdx 100000 (BitVec.ofNat 32 j) = BitVec.ofNat 32 j := by
  have hs : (BitVec.ofNat 32 j).slt 0#32 = false := by
    rw [BitVec.slt, toInt_ofNat_lt j h]; simp
  unfold wrapIdx Scalar.select IntOp.cmpi
  simp [hs]

theorem node_ofNat (j : Fin 100000) : node (BitVec.ofNat 32 j.val) = j := by
  unfold node clampRow
  refine Fin.ext ?_
  show min (wrapIdx 100000 (BitVec.ofNat 32 j.val)).toInt.toNat (100000 - 1) = j.val
  rw [wrapIdx_ofNat j.val j.isLt, toInt_ofNat_lt j.val j.isLt]
  have := j.isLt
  simp; omega

/-! ## The edge list with the self loops appended -/

/-- Edge words with the 100000 loop words appended: edge 1600000 + j carries the number j. -/
def withLoops (a : Fin 1600000 → BitVec 32) (e : Fin 1700000) : BitVec 32 :=
  if h : e.val < 1600000 then a ⟨e.val, h⟩ else BitVec.ofNat 32 (e.val - 1600000)

/-- A sum over the 1700000 edges is the sum over the 1600000 real edges plus the sum over the 100000 loops. -/
theorem sum_withLoops {M : Type*} [AddCommMonoid M] (f : Fin 1700000 → M) :
    ∑ e, f e = ∑ e : Fin 1600000, f ⟨e.val, by have := e.isLt; omega⟩
      + ∑ j : Fin 100000, f ⟨1600000 + j.val, by have := j.isLt; omega⟩ :=
  Fin.sum_univ_add (a := 1600000) (b := 100000) f

theorem withLoops_edge (a : Fin 1600000 → BitVec 32) (e : Fin 1600000) (h : e.val < 1700000) :
    withLoops a ⟨e.val, h⟩ = a e := by
  unfold withLoops; rw [dif_pos e.isLt]

theorem withLoops_loop (a : Fin 1600000 → BitVec 32) (j : Fin 100000) (h : 1600000 + j.val < 1700000) :
    withLoops a ⟨1600000 + j.val, h⟩ = BitVec.ofNat 32 j.val := by
  unfold withLoops
  rw [dif_neg (by show ¬ (1600000 + j.val < 1600000); omega)]
  show BitVec.ofNat 32 (1600000 + j.val - 1600000) = _
  rw [Nat.add_sub_cancel_left]

/-- Among the loops, exactly loop r carries the word that names r. -/
theorem sum_loops_named {M : Type*} [AddCommMonoid M] (r : Fin 100000) (g : Fin 100000 → M) :
    (∑ j : Fin 100000, if (BitVec.ofNat 32 j.val).toInt = (r.val : Int) then g j else 0) = g r := by
  have : ∀ j : Fin 100000, ((BitVec.ofNat 32 j.val).toInt = (r.val : Int)) ↔ j = r := fun j => by
    rw [toInt_ofNat_lt j.val j.isLt]
    constructor
    · intro h; exact Fin.ext (by exact_mod_cast h)
    · rintro rfl; rfl
  simp only [this]
  rw [Finset.sum_ite_eq' Finset.univ r g]
  simp

/-! ## The two arrangements -/

section
variable (h : Fin 100000 → Fin 64 → EReal) (src tgt : Fin 1600000 → BitVec 32)

/-- The number of real edges whose source word names node i, each weighing 1.0. -/
def count (i : Fin 100000) : EReal := ∑ e : Fin 1600000, if (src e).toInt = (i.val : Int) then one else 0

/-- The kernel's degree: the counted real edges, and then the self loop. -/
def degK (i : Fin 100000) : EReal := (zero + count src i) + one
/-- The reference's degree: one segment sum over the edge list with the loops appended. -/
def degR (i : Fin 100000) : EReal :=
  zero + ∑ e : Fin 1700000, if (withLoops src e).toInt = (i.val : Int) then one else 0

theorem degR_eq_degK (i : Fin 100000) : degR src i = degK src i := by
  unfold degR degK count
  rw [sum_withLoops]
  simp only [withLoops_edge, withLoops_loop]
  rw [sum_loops_named i (fun _ => one), add_assoc]

/-- The kernel's layer output. -/
def outK (r : Fin 100000) (c : Fin 64) : EReal :=
  (zero + ∑ e : Fin 1600000, if (tgt e).toInt = (r.val : Int) then
      h (node (src e)) c * (invSqrtDeg (degK src (node (src e))) * invSqrtDeg (degK src (node (tgt e)))) else 0)
    + (invSqrtDeg (degK src r) * invSqrtDeg (degK src r)) * h r c

/-- The reference's layer output. -/
def outR (r : Fin 100000) (c : Fin 64) : EReal :=
  zero + ∑ e : Fin 1700000, if (withLoops tgt e).toInt = (r.val : Int) then
      h (node (withLoops src e)) c
        * ((invSqrtDeg (degR src (node (withLoops src e))) * one) * invSqrtDeg (degR src (node (withLoops tgt e)))) else 0

/-- THE LAYER IS ONE FUNCTION in both arrangements. -/
theorem outR_eq_outK (r : Fin 100000) (c : Fin 64) : outR h src tgt r c = outK h src tgt r c := by
  unfold outR outK
  rw [sum_withLoops]
  simp only [withLoops_edge, withLoops_loop, degR_eq_degK, one_eq, mul_one]
  rw [sum_loops_named r (fun j => h (node (BitVec.ofNat 32 j.val)) c
      * (invSqrtDeg (degK src (node (BitVec.ofNat 32 j.val))) * invSqrtDeg (degK src (node (BitVec.ofNat 32 j.val))))),
    node_ofNat, add_assoc, mul_comm (h r c)]
end

end Cert.Layer

end
-- ==== Proof.KerRead.lean ====
/-
  The kernel program's result, read at an index, is the layer in the kernel's arrangement.

  Before the region: the source and target words are the edge list's two rows; the degree is the segment sum of
  ones over the real edges, plus 1.0 for the self loop; its guarded inverse square root is looked up at the
  wrapped and clamped source and target of each edge and multiplied.  After the region, over its output h: the
  rows of h are looked up at the sources, scaled, summed into their targets, and the dense self-loop term
  (d · d) · h is added.
-/
import proofs.«170912_j32487132627457_2_alg».proof.Proof.KerRun
import proofs.«170912_j32487132627457_2_alg».proof.Proof.Layer
import proofs.«170912_j32487132627457_2_alg».proof.Proof.LibGraphOps
import Idealize.ShloMosaic.Lib.Pipeline.Value

set_option maxRecDepth 16384

noncomputable section

namespace Cert.KernelIdeal.Host

open Cert.KernelIdeal Cert.KernelIdeal.Gen Idealize.ShloMosaic Idealize.ShloMosaic.ValueIdx Idealize.ShloMosaic.RowGather
open Idealize.ShloMosaic.VecGather Cert.Lib.GraphOps Cert.Lib.RowBroadcast Cert.Lib.HostColumns Cert.Layer
open scoped BigOperators

variable (x0 : (⟨S100000x64, .f32⟩ : BufTy).Contents (Elt Ideal)) (x1 : (⟨S64x64, .f32⟩ : BufTy).Contents (Elt Ideal))
  (x2 : (⟨S2x1600000, .i32⟩ : BufTy).Contents (Elt Ideal))

/-! ## Before the region -/

theorem src_apply (e : Fin 1600000) : p_main_v1 (F := Ideal) x0 x1 x2 (ix1 e) = srcWords x2 e :=
  edge_row_apply 0 (by decide) x2 slices_S2x1600000_S1x1600000_0_0 shapeCasts_S1x1600000_S1600000 e
theorem tgt_apply (e : Fin 1600000) : p_main_v3 (F := Ideal) x0 x1 x2 (ix1 e) = tgtWords x2 e :=
  edge_row_apply 1 (by decide) x2 slices_S2x1600000_S1x1600000_1_0 shapeCasts_S1x1600000_S1600000 e

/-- The degree of node i: the counted real edges, then the self loop. -/
theorem deg_apply (i : Fin 100000) : (p_main_v9 (F := Ideal) x0 x1 x2 (ix1 i) : EReal) = degK (srcWords x2) i := by
  have h7 : (p_main_v7 (F := Ideal) x0 x1 x2 (ix1 i) : EReal) = zero + Cert.Layer.count (srcWords x2) i := by
    refine (count_apply (N := 100000) (M := 1600000) scatter_S100000_S1600000x1_S1600000_n_0_0_1.wf bcast_S_S100000 bcast_S_S1600000
      bcast_S1600000_S1600000x1_0 (p_main_v1 (F := Ideal) x0 x1 x2) 0x00000000#32 0x3F800000#32 i).trans ?_
    unfold Cert.Layer.count
    simp only [src_apply]
    rfl
  have h8 : (p_main_v8 (F := Ideal) x0 x1 x2 (ix1 i) : EReal) = one := by
    unfold one
    exact broadcastInDim_scalar_apply (constant (F := Ideal) S_ .f32 0x3F800000#32) bcast_S_S100000 (ix1 i) ix0
  unfold p_main_v9 degK
  rw [addf_apply, h7, h8]

/-- Its guarded inverse square root. -/
theorem dis_apply (i : Fin 100000) :
    (p_main_v15 (F := Ideal) x0 x1 x2 (ix1 i) : EReal) = invSqrtDeg (degK (srcWords x2) i) := by
  refine (invSqrtDeg_apply (N := 100000) bcast_S_S100000 (p_main_v9 (F := Ideal) x0 x1 x2) i).trans ?_
  rw [deg_apply]

/-- The per-edge factor: d at the source times d at the target. -/
theorem factor_apply (e : Fin 1600000) :
    (p_main_v30 (F := Ideal) x0 x1 x2 (ix1 e) : EReal)
      = invSqrtDeg (degK (srcWords x2) (node (srcWords x2 e))) * invSqrtDeg (degK (srcWords x2) (node (tgtWords x2 e))) := by
  have c21 : p_main_v21 (F := Ideal) x0 x1 x2 (ix2 e (0 : Fin 1)) = wrapIdx 100000 (srcWords x2 e) := by
    refine (wrapped_col_apply (M := 1600000) 100000 (p_main_v1 (F := Ideal) x0 x1 x2) bcast_S_S1600000 bcast_S1600000_S1600000x1_0 e).trans ?_
    rw [src_apply]
  have c28 : p_main_v28 (F := Ideal) x0 x1 x2 (ix2 e (0 : Fin 1)) = wrapIdx 100000 (tgtWords x2 e) := by
    refine (wrapped_col_apply (M := 1600000) 100000 (p_main_v3 (F := Ideal) x0 x1 x2) bcast_S_S1600000 bcast_S1600000_S1600000x1_0 e).trans ?_
    rw [tgt_apply]
  have h22 : (p_main_v22 (F := Ideal) x0 x1 x2 (ix1 e) : EReal) = invSqrtDeg (degK (srcWords x2) (node (srcWords x2 e))) := by
    refine (gather_vec_apply (N := 100000) (E := 1600000) (by decide) gather_S100000_S1600000x1_S1600000_n_0_n_n_0_1_1.wf
      (p_main_v15 (F := Ideal) x0 x1 x2) (p_main_v21 (F := Ideal) x0 x1 x2) e).trans ?_
    rw [c21, dis_apply]; rfl
  have h29 : (p_main_v29 (F := Ideal) x0 x1 x2 (ix1 e) : EReal) = invSqrtDeg (degK (srcWords x2) (node (tgtWords x2 e))) := by
    refine (gather_vec_apply (N := 100000) (E := 1600000) (by decide) gather_S100000_S1600000x1_S1600000_n_0_n_n_0_1_1.wf
      (p_main_v15 (F := Ideal) x0 x1 x2) (p_main_v28 (F := Ideal) x0 x1 x2) e).trans ?_
    rw [c28, dis_apply]; rfl
  unfold p_main_v30
  rw [mulf_apply, h22, h29]

/-! ## After the region, over the four buffers it reads and the region's output -/

section Tail
variable (r cl : (⟨S1600000, .i32⟩ : BufTy).Contents (Elt Ideal)) (dis : (⟨S100000, .f32⟩ : BufTy).Contents (Elt Ideal))
  (nrm : (⟨S1600000, .f32⟩ : BufTy).Contents (Elt Ideal)) (h : (⟨S100000x64, .f32⟩ : BufTy).Contents (Elt Ideal))

/-- The message of edge e at lane c. -/
theorem message_apply (e : Fin 1600000) (c : Fin 64) :
    (t_main_v41 (F := Ideal) r cl dis nrm h (ix2 e c) : EReal) = h (ix2 (node (r (ix1 e))) c) * nrm (ix1 e) := by
  have c37 : t_main_v37 (F := Ideal) r cl dis nrm h (ix2 e (0 : Fin 1)) = wrapIdx 100000 (r (ix1 e)) :=
    wrapped_col_apply (M := 1600000) 100000 r bcast_S_S1600000 bcast_S1600000_S1600000x1_0 e
  have h38 : (t_main_v38 (F := Ideal) r cl dis nrm h (ix2 e c) : EReal) = h (ix2 (node (r (ix1 e))) c) := by
    refine (gather_rows_apply (N := 100000) (E := 1600000) (C := 64) (by decide) gather_S100000x64_S1600000x1_S1600000x64_1_0_n_n_0_1_164.wf
      h (t_main_v37 (F := Ideal) r cl dis nrm h) e c).trans ?_
    rw [c37]; rfl
  have h40 : (t_main_v40 (F := Ideal) r cl dis nrm h (ix2 e c) : EReal) = nrm (ix1 e) :=
    spread_apply nrm bcast_S1600000_S1600000x1_0 bcast_S1600000x1_S1600000x64_0_1 e c
  unfold t_main_v41
  rw [mulf_apply, h38, h40]

/-- The tail's result at (i, c): the aggregated messages plus the dense self-loop term. -/
theorem tail_apply (i : Fin 100000) (c : Fin 64) :
    (t_main_v49 (F := Ideal) r cl dis nrm h (ix2 i c) : EReal)
      = (zero + ∑ e : Fin 1600000, if (cl (ix1 e)).toInt = (i.val : Int) then (h (ix2 (node (r (ix1 e))) c) * nrm (ix1 e) : EReal) else 0)
        + (dis (ix1 i) * dis (ix1 i)) * h (ix2 i c) := by
  have h44 : (t_main_v44 (F := Ideal) r cl dis nrm h (ix2 i c) : EReal)
      = zero + ∑ e : Fin 1600000, if (cl (ix1 e)).toInt = (i.val : Int) then (h (ix2 (node (r (ix1 e))) c) * nrm (ix1 e) : EReal) else 0 := by
    refine (aggregate_apply (N := 100000) (M := 1600000) (C := 64) scatter_S100000x64_S1600000x1_S1600000x64_1_0_0_1.wf bcast_S_S100000x64
      bcast_S1600000_S1600000x1_0 cl (t_main_v41 (F := Ideal) r cl dis nrm h) 0x00000000#32 i c).trans ?_
    simp only [message_apply]
    rfl
  have h47 : (t_main_v47 (F := Ideal) r cl dis nrm h (ix2 i c) : EReal) = dis (ix1 i) * dis (ix1 i) := by
    refine (spread_apply (t_main_v45 (F := Ideal) r cl dis nrm h) bcast_S100000_S100000x1_0 bcast_S100000x1_S100000x64_0_1 i c).trans ?_
    unfold t_main_v45
    rw [mulf_apply]
  unfold t_main_v49 t_main_v48
  rw [addf_apply, mulf_apply, h44, h47]
end Tail

/-- THE KERNEL PROGRAM'S RESULT at (i, c): the layer in the kernel's arrangement, over the product's entries. -/
theorem out_apply (i : Fin 100000) (c : Fin 64) :
    (out x0 x1 x2 (ix2 i c) : EReal)
      = outK (fun a q => (Cert.KernelIdeal.Dense.prod x0 x1 (ix2 a q) : EReal)) (srcWords x2) (tgtWords x2) i c := by
  unfold out
  rw [tail_apply]
  unfold outK
  simp only [src_apply, tgt_apply, factor_apply, dis_apply]

end Cert.KernelIdeal.Host

end
-- ==== Proof.RefRun.lean ====
/-
  The reference program's run, read back.  Its @main is a straight line of 61 host operations (the call of
  the outlined `where` stands as its three operations at the call site); every weakly fair execution of such a
  line terminates, each buffer ending at the composition of the operations that lead to it, the arguments
  unchanged.  The stages below name that composition one operation at a time, as functions of the three
  arguments — node features x0 : [100000, 64], weight x1 : [64, 64], edge list x2 : [2, 1600000] —, so that the
  result, the last stage, can be read at an index stage by stage.
-/
import proofs.«170912_j32487132627457_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 61 operations, in order. -/
abbrev ops : List (HloOp τ sig (Elt F)) :=
  [ nullary main_v0 (iotaInDim S100000 32 0),
    unary main_arg2 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg2 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v3 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (.of main_cst_3) main_call0.v0 id,
    TRef.unary main_call0.v0 main_call0.v1 (broadcastInDim S100000 ![] bcast_S_S100000),
    TRef.ternary (.of main_v12) (.of main_v15) main_call0.v1 main_call0.v2 select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v7 main_v24 (mulf : (⟨S1700000, .f32⟩ : BufTy).Contents (Elt F) → (⟨S1700000, .f32⟩ : BufTy).Contents (Elt F) → (⟨S1700000, .f32⟩ : BufTy).Contents (Elt F)),
    nullary main_c_5 (constantI S_ 32 0#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v27 (broadcastInDim S1700000 ![] bcast_S_S1700000 : (⟨S_, .i32⟩ : BufTy).Contents (Elt F) → (⟨S1700000, .i32⟩ : BufTy).Contents (Elt F)),
    binary main_v6 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v6 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)),
    binary main_arg0 main_arg1 main_v33 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_7 (constantI S_ 32 0#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v36 (broadcastInDim S1700000 ![] bcast_S_S1700000 : (⟨S_, .i32⟩ : BufTy).Contents (Elt F) → (⟨S1700000, .i32⟩ : BufTy).Contents (Elt F)),
    binary main_v3 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v3 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v33 main_v39 main_v40 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v32 main_v41 (broadcastInDim S1700000x1 ![0] bcast_S1700000_S1700000x1_0 : (⟨S1700000, .f32⟩ : BufTy).Contents (Elt F) → (⟨S1700000x1, .f32⟩ : BufTy).Contents (Elt F)),
    unary main_v41 main_v42 (broadcastInDim S1700000x64 ![0, 1] bcast_S1700000x1_S1700000x64_0_1 : (⟨S1700000x1, .f32⟩ : BufTy).Contents (Elt F) → (⟨S1700000x64, .f32⟩ : BufTy).Contents (Elt F)),
    binary main_v40 main_v42 main_v43 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v44 (broadcastInDim S100000x64 ![] bcast_S_S100000x64 : (⟨S_, .f32⟩ : BufTy).Contents (Elt F) → (⟨S100000x64, .f32⟩ : BufTy).Contents (Elt F)),
    unary main_v6 main_v45 (broadcastInDim S1700000x1 ![0] bcast_S1700000_S1700000x1_0 : (⟨S1700000, .i32⟩ : BufTy).Contents (Elt F) → (⟨S1700000x1, .i32⟩ : BufTy).Contents (Elt F)),
    ternary main_v44 main_v45 main_v43 main_v46 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

/-! ## The stages: each operation's result as a function of the arguments -/

def s_main_v0 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .i32⟩ : BufTy).Contents (Elt F) :=
  (iotaInDim S100000 32 0)
def s_main_v1 (x0 : (⟨S100000x64, .f32⟩ : BufTy).Contents (Elt F)) (x1 : (⟨S64x64, .f32⟩ : BufTy).Contents (Elt F)) (x2 : (⟨S2x1600000, .i32⟩ : BufTy).Contents (Elt F)) : (⟨S1x1600000, .i32⟩ : BufTy).Contents (Elt F) :=
  ((extractStridedSlice S1x1600000 ![0, 0] · slices_S2x1600000_S1x1600000_0_0) : (⟨S2x1600000, .i32⟩ : BufTy).Contents (Elt F) → (⟨S1x1600000, .i32⟩ : BufTy).Contents (Elt F)) x2
def s_main_v2 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i32⟩ : BufTy).Contents (Elt F) :=
  (fun y => shapeCast _ y shapeCasts_S1x1600000_S1600000) (s_main_v1 x0 x1 x2)
def s_main_v3 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (s_main_v2 x0 x1 x2) (s_main_v0 x0 x1 x2)
def s_main_v4 (x0 : (⟨S100000x64, .f32⟩ : BufTy).Contents (Elt F)) (x1 : (⟨S64x64, .f32⟩ : BufTy).Contents (Elt F)) (x2 : (⟨S2x1600000, .i32⟩ : BufTy).Contents (Elt F)) : (⟨S1x1600000, .i32⟩ : BufTy).Contents (Elt F) :=
  ((extractStridedSlice S1x1600000 ![1, 0] · slices_S2x1600000_S1x1600000_1_0) : (⟨S2x1600000, .i32⟩ : BufTy).Contents (Elt F) → (⟨S1x1600000, .i32⟩ : BufTy).Contents (Elt F)) x2
def s_main_v5 (x0 : (⟨S100000x64, .f32⟩ : BufTy).Contents (Elt F)) (x1 : (⟨S64x64, .f32⟩ : BufTy).Contents (Elt F)) (x2 : (⟨S2x1600000, .i32⟩ : BufTy).Contents (Elt F)) : (⟨S1600000, .i32⟩ : BufTy).Contents (Elt F) :=
  (fun y => shapeCast _ y shapeCasts_S1x1600000_S1600000) (s_main_v4 x0 x1 x2)
def s_main_v6 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (s_main_v5 x0 x1 x2) (s_main_v0 x0 x1 x2)
def s_main_cst (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  (constant S_ .f32 0x3F800000#32)
def s_main_v7 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .f32⟩ : BufTy).Contents (Elt F) :=
  (broadcastInDim S1700000 ![] bcast_S_S1700000 : (⟨S_, .f32⟩ : BufTy).Contents (Elt F) → (⟨S1700000, .f32⟩ : BufTy).Contents (Elt F)) (s_main_cst x0 x1 x2)
def s_main_cst_0 (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  (constant S_ .f32 0x00000000#32)
def s_main_v8 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (broadcastInDim S100000 ![] bcast_S_S100000 : (⟨S_, .f32⟩ : BufTy).Contents (Elt F) → (⟨S100000, .f32⟩ : BufTy).Contents (Elt F)) (s_main_cst_0 x0 x1 x2)
def s_main_v9 (x0 : (⟨S100000x64, .f32⟩ : BufTy).Contents (Elt F)) (x1 : (⟨S64x64, .f32⟩ : BufTy).Contents (Elt F)) (x2 : (⟨S2x1600000, .i32⟩ : BufTy).Contents (Elt F)) : (⟨S1700000x1, .i32⟩ : BufTy).Contents (Elt F) :=
  (broadcastInDim S1700000x1 ![0] bcast_S1700000_S1700000x1_0 : (⟨S1700000, .i32⟩ : BufTy).Contents (Elt F) → (⟨S1700000x1, .i32⟩ : BufTy).Contents (Elt F)) (s_main_v3 x0 x1 x2)
def s_main_v10 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) (s_main_v8 x0 x1 x2) (s_main_v9 x0 x1 x2) (s_main_v7 x0 x1 x2)
def s_main_cst_1 (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  (constant S_ .f32 0x00000000#32)
def s_main_v11 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (broadcastInDim S100000 ![] bcast_S_S100000 : (⟨S_, .f32⟩ : BufTy).Contents (Elt F) → (⟨S100000, .f32⟩ : BufTy).Contents (Elt F)) (s_main_cst_1 x0 x1 x2)
def s_main_v12 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .i1⟩ : BufTy).Contents (Elt F) :=
  (cmpf .ogt : (⟨S100000, .f32⟩ : BufTy).Contents (Elt F) → (⟨S100000, .f32⟩ : BufTy).Contents (Elt F) → (⟨S100000, .i1⟩ : BufTy).Contents (Elt F)) (s_main_v10 x0 x1 x2) (s_main_v11 x0 x1 x2)
def s_main_cst_2 (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  (constant S_ .f32 0x2B8CBCCC#32)
def s_main_v13 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (broadcastInDim S100000 ![] bcast_S_S100000 : (⟨S_, .f32⟩ : BufTy).Contents (Elt F) → (⟨S100000, .f32⟩ : BufTy).Contents (Elt F)) (s_main_cst_2 x0 x1 x2)
def s_main_v14 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (maximumf : (⟨S100000, .f32⟩ : BufTy).Contents (Elt F) → (⟨S100000, .f32⟩ : BufTy).Contents (Elt F) → (⟨S100000, .f32⟩ : BufTy).Contents (Elt F)) (s_main_v10 x0 x1 x2) (s_main_v13 x0 x1 x2)
def s_main_v15 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (Host.rsqrt : (⟨S100000, .f32⟩ : BufTy).Contents (Elt F) → (⟨S100000, .f32⟩ : BufTy).Contents (Elt F)) (s_main_v14 x0 x1 x2)
def s_main_cst_3 (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  (constant S_ .f32 0x00000000#32)
def s_main_call0_v0 (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  id (s_main_cst_3 x0 x1 x2)
def s_main_call0_v1 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  (broadcastInDim S100000 ![] bcast_S_S100000) (s_main_call0_v0 x0 x1 x2)
def s_main_v16 (x0 : (⟨S100000x64, .f32⟩ : BufTy).Contents (Elt F)) (x1 : (⟨S64x64, .f32⟩ : BufTy).Contents (Elt F)) (x2 : (⟨S2x1600000, .i32⟩ : BufTy).Contents (Elt F)) : (⟨S100000, .f32⟩ : BufTy).Contents (Elt F) :=
  select (s_main_v12 x0 x1 x2) (s_main_v15 x0 x1 x2) (s_main_call0_v1 x0 x1 x2)
def s_main_c (x0 : (⟨S100000x64, .f32⟩ : BufTy).Contents (Elt F)) (x1 : (⟨S64x64, .f32⟩ : BufTy).Contents (Elt F)) (x2 : (⟨S2x1600000, .i32⟩ : BufTy).Contents (Elt F)) : (⟨S_, .i32⟩ : BufTy).Contents (Elt F) :=
  (constantI S_ 32 0#32)
def s_main_v17 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  (broadcastInDim S1700000 ![] bcast_S_S1700000 : (⟨S_, .i32⟩ : BufTy).Contents (Elt F) → (⟨S1700000, .i32⟩ : BufTy).Contents (Elt F)) (s_main_c x0 x1 x2)
def s_main_v18 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i1⟩ : BufTy).Contents (Elt F) :=
  (cmpi .slt : (⟨S1700000, .i32⟩ : BufTy).Contents (Elt F) → (⟨S1700000, .i32⟩ : BufTy).Contents (Elt F) → (⟨S1700000, .i1⟩ : BufTy).Contents (Elt F)) (s_main_v3 x0 x1 x2) (s_main_v17 x0 x1 x2)
def s_main_c_4 (x0 : (⟨S100000x64, .f32⟩ : BufTy).Contents (Elt F)) (x1 : (⟨S64x64, .f32⟩ : BufTy).Contents (Elt F)) (x2 : (⟨S2x1600000, .i32⟩ : BufTy).Contents (Elt F)) : (⟨S_, .i32⟩ : BufTy).Contents (Elt F) :=
  (constantI S_ 32 100000#32)
def s_main_v19 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  (broadcastInDim S1700000 ![] bcast_S_S1700000 : (⟨S_, .i32⟩ : BufTy).Contents (Elt F) → (⟨S1700000, .i32⟩ : BufTy).Contents (Elt F)) (s_main_c_4 x0 x1 x2)
def s_main_v20 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  (addi : (⟨S1700000, .i32⟩ : BufTy).Contents (Elt F) → (⟨S1700000, .i32⟩ : BufTy).Contents (Elt F) → (⟨S1700000, .i32⟩ : BufTy).Contents (Elt F)) (s_main_v3 x0 x1 x2) (s_main_v19 x0 x1 x2)
def s_main_v21 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (s_main_v18 x0 x1 x2) (s_main_v20 x0 x1 x2) (s_main_v3 x0 x1 x2)
def s_main_v22 (x0 : (⟨S100000x64, .f32⟩ : BufTy).Contents (Elt F)) (x1 : (⟨S64x64, .f32⟩ : BufTy).Contents (Elt F)) (x2 : (⟨S2x1600000, .i32⟩ : BufTy).Contents (Elt F)) : (⟨S1700000x1, .i32⟩ : BufTy).Contents (Elt F) :=
  (broadcastInDim S1700000x1 ![0] bcast_S1700000_S1700000x1_0 : (⟨S1700000, .i32⟩ : BufTy).Contents (Elt F) → (⟨S1700000x1, .i32⟩ : BufTy).Contents (Elt F)) (s_main_v21 x0 x1 x2)
def s_main_v23 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .f32⟩ : BufTy).Contents (Elt F) :=
  ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) (s_main_v16 x0 x1 x2) (s_main_v22 x0 x1 x2)
def s_main_v24 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .f32⟩ : BufTy).Contents (Elt F) :=
  (mulf : (⟨S1700000, .f32⟩ : BufTy).Contents (Elt F) → (⟨S1700000, .f32⟩ : BufTy).Contents (Elt F) → (⟨S1700000, .f32⟩ : BufTy).Contents (Elt F)) (s_main_v23 x0 x1 x2) (s_main_v7 x0 x1 x2)
def s_main_c_5 (x0 : (⟨S100000x64, .f32⟩ : BufTy).Contents (Elt F)) (x1 : (⟨S64x64, .f32⟩ : BufTy).Contents (Elt F)) (x2 : (⟨S2x1600000, .i32⟩ : BufTy).Contents (Elt F)) : (⟨S_, .i32⟩ : BufTy).Contents (Elt F) :=
  (constantI S_ 32 0#32)
def s_main_v25 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  (broadcastInDim S1700000 ![] bcast_S_S1700000 : (⟨S_, .i32⟩ : BufTy).Contents (Elt F) → (⟨S1700000, .i32⟩ : BufTy).Contents (Elt F)) (s_main_c_5 x0 x1 x2)
def s_main_v26 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i1⟩ : BufTy).Contents (Elt F) :=
  (cmpi .slt : (⟨S1700000, .i32⟩ : BufTy).Contents (Elt F) → (⟨S1700000, .i32⟩ : BufTy).Contents (Elt F) → (⟨S1700000, .i1⟩ : BufTy).Contents (Elt F)) (s_main_v6 x0 x1 x2) (s_main_v25 x0 x1 x2)
def s_main_c_6 (x0 : (⟨S100000x64, .f32⟩ : BufTy).Contents (Elt F)) (x1 : (⟨S64x64, .f32⟩ : BufTy).Contents (Elt F)) (x2 : (⟨S2x1600000, .i32⟩ : BufTy).Contents (Elt F)) : (⟨S_, .i32⟩ : BufTy).Contents (Elt F) :=
  (constantI S_ 32 100000#32)
def s_main_v27 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  (broadcastInDim S1700000 ![] bcast_S_S1700000 : (⟨S_, .i32⟩ : BufTy).Contents (Elt F) → (⟨S1700000, .i32⟩ : BufTy).Contents (Elt F)) (s_main_c_6 x0 x1 x2)
def s_main_v28 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  (addi : (⟨S1700000, .i32⟩ : BufTy).Contents (Elt F) → (⟨S1700000, .i32⟩ : BufTy).Contents (Elt F) → (⟨S1700000, .i32⟩ : BufTy).Contents (Elt F)) (s_main_v6 x0 x1 x2) (s_main_v27 x0 x1 x2)
def s_main_v29 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (s_main_v26 x0 x1 x2) (s_main_v28 x0 x1 x2) (s_main_v6 x0 x1 x2)
def s_main_v30 (x0 : (⟨S100000x64, .f32⟩ : BufTy).Contents (Elt F)) (x1 : (⟨S64x64, .f32⟩ : BufTy).Contents (Elt F)) (x2 : (⟨S2x1600000, .i32⟩ : BufTy).Contents (Elt F)) : (⟨S1700000x1, .i32⟩ : BufTy).Contents (Elt F) :=
  (broadcastInDim S1700000x1 ![0] bcast_S1700000_S1700000x1_0 : (⟨S1700000, .i32⟩ : BufTy).Contents (Elt F) → (⟨S1700000x1, .i32⟩ : BufTy).Contents (Elt F)) (s_main_v29 x0 x1 x2)
def s_main_v31 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .f32⟩ : BufTy).Contents (Elt F) :=
  ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) (s_main_v16 x0 x1 x2) (s_main_v30 x0 x1 x2)
def s_main_v32 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .f32⟩ : BufTy).Contents (Elt F) :=
  (mulf : (⟨S1700000, .f32⟩ : BufTy).Contents (Elt F) → (⟨S1700000, .f32⟩ : BufTy).Contents (Elt F) → (⟨S1700000, .f32⟩ : BufTy).Contents (Elt F)) (s_main_v24 x0 x1 x2) (s_main_v31 x0 x1 x2)
def s_main_v33 (x0 : (⟨S100000x64, .f32⟩ : BufTy).Contents (Elt F)) (x1 : (⟨S64x64, .f32⟩ : BufTy).Contents (Elt F)) (x2 : (⟨S2x1600000, .i32⟩ : BufTy).Contents (Elt F)) : (⟨S100000x64, .f32⟩ : BufTy).Contents (Elt F) :=
  ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) x0 x1
def s_main_c_7 (x0 : (⟨S100000x64, .f32⟩ : BufTy).Contents (Elt F)) (x1 : (⟨S64x64, .f32⟩ : BufTy).Contents (Elt F)) (x2 : (⟨S2x1600000, .i32⟩ : BufTy).Contents (Elt F)) : (⟨S_, .i32⟩ : BufTy).Contents (Elt F) :=
  (constantI S_ 32 0#32)
def s_main_v34 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  (broadcastInDim S1700000 ![] bcast_S_S1700000 : (⟨S_, .i32⟩ : BufTy).Contents (Elt F) → (⟨S1700000, .i32⟩ : BufTy).Contents (Elt F)) (s_main_c_7 x0 x1 x2)
def s_main_v35 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i1⟩ : BufTy).Contents (Elt F) :=
  (cmpi .slt : (⟨S1700000, .i32⟩ : BufTy).Contents (Elt F) → (⟨S1700000, .i32⟩ : BufTy).Contents (Elt F) → (⟨S1700000, .i1⟩ : BufTy).Contents (Elt F)) (s_main_v3 x0 x1 x2) (s_main_v34 x0 x1 x2)
def s_main_c_8 (x0 : (⟨S100000x64, .f32⟩ : BufTy).Contents (Elt F)) (x1 : (⟨S64x64, .f32⟩ : BufTy).Contents (Elt F)) (x2 : (⟨S2x1600000, .i32⟩ : BufTy).Contents (Elt F)) : (⟨S_, .i32⟩ : BufTy).Contents (Elt F) :=
  (constantI S_ 32 100000#32)
def s_main_v36 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  (broadcastInDim S1700000 ![] bcast_S_S1700000 : (⟨S_, .i32⟩ : BufTy).Contents (Elt F) → (⟨S1700000, .i32⟩ : BufTy).Contents (Elt F)) (s_main_c_8 x0 x1 x2)
def s_main_v37 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  (addi : (⟨S1700000, .i32⟩ : BufTy).Contents (Elt F) → (⟨S1700000, .i32⟩ : BufTy).Contents (Elt F) → (⟨S1700000, .i32⟩ : BufTy).Contents (Elt F)) (s_main_v3 x0 x1 x2) (s_main_v36 x0 x1 x2)
def s_main_v38 (x0 : (⟨S100000x64, .f32⟩ : BufTy).Contents (Elt F)) (x1 : (⟨S64x64, .f32⟩ : BufTy).Contents (Elt F)) (x2 : (⟨S2x1600000, .i32⟩ : BufTy).Contents (Elt F)) : (⟨S1700000, .i32⟩ : BufTy).Contents (Elt F) :=
  (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (s_main_v35 x0 x1 x2) (s_main_v37 x0 x1 x2) (s_main_v3 x0 x1 x2)
def s_main_v39 (x0 : (⟨S100000x64, .f32⟩ : BufTy).Contents (Elt F)) (x1 : (⟨S64x64, .f32⟩ : BufTy).Contents (Elt F)) (x2 : (⟨S2x1600000, .i32⟩ : BufTy).Contents (Elt F)) : (⟨S1700000x1, .i32⟩ : BufTy).Contents (Elt F) :=
  (broadcastInDim S1700000x1 ![0] bcast_S1700000_S1700000x1_0 : (⟨S1700000, .i32⟩ : BufTy).Contents (Elt F) → (⟨S1700000x1, .i32⟩ : BufTy).Contents (Elt F)) (s_main_v38 x0 x1 x2)
def s_main_v40 (x0 : (⟨S100000x64, .f32⟩ : BufTy).Contents (Elt F)) (x1 : (⟨S64x64, .f32⟩ : BufTy).Contents (Elt F)) (x2 : (⟨S2x1600000, .i32⟩ : BufTy).Contents (Elt F)) : (⟨S1700000x64, .f32⟩ : BufTy).Contents (Elt F) :=
  ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)) (s_main_v33 x0 x1 x2) (s_main_v39 x0 x1 x2)
def s_main_v41 (x0 : (⟨S100000x64, .f32⟩ : BufTy).Contents (Elt F)) (x1 : (⟨S64x64, .f32⟩ : BufTy).Contents (Elt F)) (x2 : (⟨S2x1600000, .i32⟩ : BufTy).Contents (Elt F)) : (⟨S1700000x1, .f32⟩ : BufTy).Contents (Elt F) :=
  (broadcastInDim S1700000x1 ![0] bcast_S1700000_S1700000x1_0 : (⟨S1700000, .f32⟩ : BufTy).Contents (Elt F) → (⟨S1700000x1, .f32⟩ : BufTy).Contents (Elt F)) (s_main_v32 x0 x1 x2)
def s_main_v42 (x0 : (⟨S100000x64, .f32⟩ : BufTy).Contents (Elt F)) (x1 : (⟨S64x64, .f32⟩ : BufTy).Contents (Elt F)) (x2 : (⟨S2x1600000, .i32⟩ : BufTy).Contents (Elt F)) : (⟨S1700000x64, .f32⟩ : BufTy).Contents (Elt F) :=
  (broadcastInDim S1700000x64 ![0, 1] bcast_S1700000x1_S1700000x64_0_1 : (⟨S1700000x1, .f32⟩ : BufTy).Contents (Elt F) → (⟨S1700000x64, .f32⟩ : BufTy).Contents (Elt F)) (s_main_v41 x0 x1 x2)
def s_main_v43 (x0 : (⟨S100000x64, .f32⟩ : BufTy).Contents (Elt F)) (x1 : (⟨S64x64, .f32⟩ : BufTy).Contents (Elt F)) (x2 : (⟨S2x1600000, .i32⟩ : BufTy).Contents (Elt F)) : (⟨S1700000x64, .f32⟩ : BufTy).Contents (Elt F) :=
  (mulf : (⟨S1700000x64, .f32⟩ : BufTy).Contents (Elt F) → (⟨S1700000x64, .f32⟩ : BufTy).Contents (Elt F) → (⟨S1700000x64, .f32⟩ : BufTy).Contents (Elt F)) (s_main_v40 x0 x1 x2) (s_main_v42 x0 x1 x2)
def s_main_cst_9 (x0 : (⟨S100000x64, .f32⟩ : BufTy).Contents (Elt F)) (x1 : (⟨S64x64, .f32⟩ : BufTy).Contents (Elt F)) (x2 : (⟨S2x1600000, .i32⟩ : BufTy).Contents (Elt F)) : (⟨S_, .f32⟩ : BufTy).Contents (Elt F) :=
  (constant S_ .f32 0x00000000#32)
def s_main_v44 (x0 : (⟨S100000x64, .f32⟩ : BufTy).Contents (Elt F)) (x1 : (⟨S64x64, .f32⟩ : BufTy).Contents (Elt F)) (x2 : (⟨S2x1600000, .i32⟩ : BufTy).Contents (Elt F)) : (⟨S100000x64, .f32⟩ : BufTy).Contents (Elt F) :=
  (broadcastInDim S100000x64 ![] bcast_S_S100000x64 : (⟨S_, .f32⟩ : BufTy).Contents (Elt F) → (⟨S100000x64, .f32⟩ : BufTy).Contents (Elt F)) (s_main_cst_9 x0 x1 x2)
def s_main_v45 (x0 : (⟨S100000x64, .f32⟩ : BufTy).Contents (Elt F)) (x1 : (⟨S64x64, .f32⟩ : BufTy).Contents (Elt F)) (x2 : (⟨S2x1600000, .i32⟩ : BufTy).Contents (Elt F)) : (⟨S1700000x1, .i32⟩ : BufTy).Contents (Elt F) :=
  (broadcastInDim S1700000x1 ![0] bcast_S1700000_S1700000x1_0 : (⟨S1700000, .i32⟩ : BufTy).Contents (Elt F) → (⟨S1700000x1, .i32⟩ : BufTy).Contents (Elt F)) (s_main_v6 x0 x1 x2)
def s_main_v46 (x0 : (⟨S100000x64, .f32⟩ : BufTy).Contents (Elt F)) (x1 : (⟨S64x64, .f32⟩ : BufTy).Contents (Elt F)) (x2 : (⟨S2x1600000, .i32⟩ : BufTy).Contents (Elt F)) : (⟨S100000x64, .f32⟩ : BufTy).Contents (Elt F) :=
  ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) (s_main_v44 x0 x1 x2) (s_main_v45 x0 x1 x2) (s_main_v43 x0 x1 x2)

set_option maxRecDepth 8192 in
set_option maxHeartbeats 24400000 in
/-- On every device, from any memory with zero counters: every weakly fair execution of @main terminates with
    the result buffer at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = s_main_v46 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v46).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.Hand

end
-- ==== Proof.RefRead.lean ====
/-
  The reference program's result, read at an index, is the layer in the reference's arrangement.

  Stage by stage: the source and target words of the 1700000 edges are the edge list's two rows with the node
  numbers 0 … 99999 appended; the degree is their segment sum of ones; its guarded inverse square root is looked
  up at the wrapped and clamped source and target of each edge and multiplied (with the weight 1.0 in between);
  the product's rows are looked up at the sources, scaled, and summed into their targets.
-/
import proofs.«170912_j32487132627457_2_alg».proof.Proof.RefRun
import proofs.«170912_j32487132627457_2_alg».proof.Proof.Layer
import proofs.«170912_j32487132627457_2_alg».proof.Proof.LibGraphOps
import Idealize.ShloMosaic.Lib.Pipeline.Value

set_option maxRecDepth 16384

noncomputable section

namespace Cert.ReferenceIdeal.Hand

open Cert.ReferenceIdeal Cert.ReferenceIdeal.Gen Idealize.ShloMosaic Idealize.ShloMosaic.ValueIdx Idealize.ShloMosaic.RowGather
open Idealize.ShloMosaic.VecGather Cert.Lib.GraphOps Cert.Lib.RowBroadcast Cert.Layer
open scoped BigOperators

variable (x0 : (⟨S100000x64, .f32⟩ : BufTy).Contents (Elt Ideal)) (x1 : (⟨S64x64, .f32⟩ : BufTy).Contents (Elt Ideal))
  (x2 : (⟨S2x1600000, .i32⟩ : BufTy).Contents (Elt Ideal))

/-- A row of the edge list with the node numbers appended, at edge e. -/
theorem appended_apply (o : Nat) (ho : o < 2)
    (hs : (⟨2, ![2, 1600000]⟩ : Shape).Slices ![o, 0] ⟨2, ![1, 1600000]⟩)
    (e : Fin 1700000) :
    concatenate S1700000 0 [⟨S1600000, shapeCast S1600000 (extractStridedSlice S1x1600000 ![o, 0] x2 hs) shapeCasts_S1x1600000_S1600000⟩,
        ⟨S100000, iotaInDim S100000 32 0⟩] concatenates_S1600000_S100000_S1700000_d0 (ix1 e)
      = withLoops (fun a => x2 (ix2 (⟨o, ho⟩ : Fin 2) a)) e := by
  unfold withLoops
  split
  · next h =>
    rw [concatenate_pair_apply_left (t := S1700000) (s₁ := S1600000) (s₂ := S100000) (0 : Fin 1)
      (shapeCast S1600000 (extractStridedSlice S1x1600000 ![o, 0] x2 hs) shapeCasts_S1x1600000_S1600000)
      (iotaInDim S100000 32 0) concatenates_S1600000_S100000_S1700000_d0 (ix1 e) rfl
      (ix1 (⟨e.val, h⟩ : Fin 1600000)) (fun b => by obtain rfl : b = 0 := Subsingleton.elim _ _; rfl)]
    exact edge_row_apply o ho x2 hs shapeCasts_S1x1600000_S1600000 ⟨e.val, h⟩
  · next h =>
    have he : e.val < 1700000 := e.isLt
    rw [concatenate_pair_apply_right (t := S1700000) (s₁ := S1600000) (s₂ := S100000) (0 : Fin 1)
      (shapeCast S1600000 (extractStridedSlice S1x1600000 ![o, 0] x2 hs) shapeCasts_S1x1600000_S1600000)
      (iotaInDim S100000 32 0) concatenates_S1600000_S100000_S1700000_d0 (ix1 e) rfl rfl
      (ix1 (⟨e.val - 1600000, by omega⟩ : Fin 100000))
      (fun b hb => absurd (Subsingleton.elim _ _) hb)
      (by show (e.val - 1600000) + 1600000 = e.val; omega)]
    rfl

theorem src_apply (e : Fin 1700000) : s_main_v3 (F := Ideal) x0 x1 x2 (ix1 e) = withLoops (srcWords x2) e :=
  appended_apply x2 0 (by decide) slices_S2x1600000_S1x1600000_0_0 e
theorem tgt_apply (e : Fin 1700000) : s_main_v6 (F := Ideal) x0 x1 x2 (ix1 e) = withLoops (tgtWords x2) e :=
  appended_apply x2 1 (by decide) slices_S2x1600000_S1x1600000_1_0 e

/-- The degree of node i. -/
theorem deg_apply (i : Fin 100000) : (s_main_v10 (F := Ideal) x0 x1 x2 (ix1 i) : EReal) = degR (srcWords x2) i := by
  refine (count_apply (N := 100000) (M := 1700000) scatter_S100000_S1700000x1_S1700000_n_0_0_1.wf bcast_S_S100000 bcast_S_S1700000
    bcast_S1700000_S1700000x1_0 (s_main_v3 (F := Ideal) x0 x1 x2) 0x00000000#32 0x3F800000#32 i).trans ?_
  unfold degR
  simp only [src_apply]
  rfl

/-- Its guarded inverse square root. -/
theorem dis_apply (i : Fin 100000) :
    (s_main_v16 (F := Ideal) x0 x1 x2 (ix1 i) : EReal) = invSqrtDeg (degR (srcWords x2) i) := by
  refine (invSqrtDeg_apply (N := 100000) bcast_S_S100000 (s_main_v10 (F := Ideal) x0 x1 x2) i).trans ?_
  rw [deg_apply]

/-- The wrapped source / target column of edge e. -/
theorem srcCol_apply (e : Fin 1700000) :
    s_main_v22 (F := Ideal) x0 x1 x2 (ix2 e (0 : Fin 1)) = wrapIdx 100000 (withLoops (srcWords x2) e) := by
  refine (wrapped_col_apply (M := 1700000) 100000 (s_main_v3 (F := Ideal) x0 x1 x2) bcast_S_S1700000 bcast_S1700000_S1700000x1_0 e).trans ?_
  rw [src_apply]
theorem tgtCol_apply (e : Fin 1700000) :
    s_main_v30 (F := Ideal) x0 x1 x2 (ix2 e (0 : Fin 1)) = wrapIdx 100000 (withLoops (tgtWords x2) e) := by
  refine (wrapped_col_apply (M := 1700000) 100000 (s_main_v6 (F := Ideal) x0 x1 x2) bcast_S_S1700000 bcast_S1700000_S1700000x1_0 e).trans ?_
  rw [tgt_apply]
theorem srcCol2_apply (e : Fin 1700000) :
    s_main_v39 (F := Ideal) x0 x1 x2 (ix2 e (0 : Fin 1)) = wrapIdx 100000 (withLoops (srcWords x2) e) := by
  refine (wrapped_col_apply (M := 1700000) 100000 (s_main_v3 (F := Ideal) x0 x1 x2) bcast_S_S1700000 bcast_S1700000_S1700000x1_0 e).trans ?_
  rw [src_apply]

/-- The per-edge factor: d at the source, times the weight 1.0, times d at the target. -/
theorem factor_apply (e : Fin 1700000) :
    (s_main_v32 (F := Ideal) x0 x1 x2 (ix1 e) : EReal)
      = (invSqrtDeg (degR (srcWords x2) (node (withLoops (srcWords x2) e))) * one)
        * invSqrtDeg (degR (srcWords x2) (node (withLoops (tgtWords x2) e))) := by
  have h23 : (s_main_v23 (F := Ideal) x0 x1 x2 (ix1 e) : EReal) = invSqrtDeg (degR (srcWords x2) (node (withLoops (srcWords x2) e))) := by
    refine (gather_vec_apply (N := 100000) (E := 1700000) (by decide) gather_S100000_S1700000x1_S1700000_n_0_n_n_0_1_1.wf
      (s_main_v16 (F := Ideal) x0 x1 x2) (s_main_v22 (F := Ideal) x0 x1 x2) e).trans ?_
    rw [srcCol_apply, dis_apply]; rfl
  have h31 : (s_main_v31 (F := Ideal) x0 x1 x2 (ix1 e) : EReal) = invSqrtDeg (degR (srcWords x2) (node (withLoops (tgtWords x2) e))) := by
    refine (gather_vec_apply (N := 100000) (E := 1700000) (by decide) gather_S100000_S1700000x1_S1700000_n_0_n_n_0_1_1.wf
      (s_main_v16 (F := Ideal) x0 x1 x2) (s_main_v30 (F := Ideal) x0 x1 x2) e).trans ?_
    rw [tgtCol_apply, dis_apply]; rfl
  have h7 : (s_main_v7 (F := Ideal) x0 x1 x2 (ix1 e) : EReal) = one := by
    unfold one
    exact broadcastInDim_scalar_apply (constant (F := Ideal) S_ .f32 0x3F800000#32) bcast_S_S1700000 (ix1 e) ix0
  unfold s_main_v32 s_main_v24
  rw [mulf_apply, mulf_apply, h23, h31, h7]

/-- The message of edge e at lane c: the product's row at the source, scaled by the factor. -/
theorem message_apply (e : Fin 1700000) (c : Fin 64) :
    (s_main_v43 (F := Ideal) x0 x1 x2 (ix2 e c) : EReal)
      = s_main_v33 (F := Ideal) x0 x1 x2 (ix2 (node (withLoops (srcWords x2) e)) c)
        * ((invSqrtDeg (degR (srcWords x2) (node (withLoops (srcWords x2) e))) * one)
          * invSqrtDeg (degR (srcWords x2) (node (withLoops (tgtWords x2) e)))) := by
  have h40 : (s_main_v40 (F := Ideal) x0 x1 x2 (ix2 e c) : EReal) = s_main_v33 (F := Ideal) x0 x1 x2 (ix2 (node (withLoops (srcWords x2) e)) c) := by
    refine (gather_rows_apply (N := 100000) (E := 1700000) (C := 64) (by decide) gather_S100000x64_S1700000x1_S1700000x64_1_0_n_n_0_1_164.wf
      (s_main_v33 (F := Ideal) x0 x1 x2) (s_main_v39 (F := Ideal) x0 x1 x2) e c).trans ?_
    rw [srcCol2_apply]; rfl
  have h42 : (s_main_v42 (F := Ideal) x0 x1 x2 (ix2 e c) : EReal) = s_main_v32 (F := Ideal) x0 x1 x2 (ix1 e) :=
    spread_apply (s_main_v32 (F := Ideal) x0 x1 x2) bcast_S1700000_S1700000x1_0 bcast_S1700000x1_S1700000x64_0_1 e c
  unfold s_main_v43
  rw [mulf_apply, h40, h42, factor_apply]

/-- THE REFERENCE'S RESULT at (r, c): the layer in the reference's arrangement, over the product's entries. -/
theorem result_apply (r : Fin 100000) (c : Fin 64) :
    (s_main_v46 (F := Ideal) x0 x1 x2 (ix2 r c) : EReal)
      = outR (fun i q => (s_main_v33 (F := Ideal) x0 x1 x2 (ix2 i q) : EReal)) (srcWords x2) (tgtWords x2) r c := by
  refine (aggregate_apply (N := 100000) (M := 1700000) (C := 64) scatter_S100000x64_S1700000x1_S1700000x64_1_0_0_1.wf bcast_S_S100000x64
    bcast_S1700000_S1700000x1_0 (s_main_v6 (F := Ideal) x0 x1 x2) (s_main_v43 (F := Ideal) x0 x1 x2) 0x00000000#32 r c).trans ?_
  unfold outR
  simp only [tgt_apply, message_apply]
  rfl

end Cert.ReferenceIdeal.Hand

end
-- ==== Proof.lean ====
/-
  A graph-convolution layer: the kernel program equals its reference at the ideal values.

  Inputs: node features x : [100000, 64], a weight w : [64, 64], an edge list [2, 1600000] of 32-bit index words.
  Both programs compute h = x · w, degrees from the source row of the edge list with one self loop per node,
  d = the guarded inverse square root of the degree, and out (r) = Σ over the edges into r of d(src) · d(tgt) · h(src),
  self loops included.

  The kernel program computes h in a pallas_call — 20 blocks of 5000 rows, each multiplied by the whole weight on
  the matrix unit — and treats the self loops densely: + 1 on every degree, + (d · d) · h on the output.  The
  reference appends the 100000 self loops to the edge list and runs everything as segment sums over 1700000
  edges, with an explicit edge weight 1.0.

  The proof, module by module:
    · KerDense: after the region the kernel's output array is the whole product x · w;
    · KerStages, KerRun: the kernel program's run ends with its result at one function `out` of the arguments;
    · RefRun: the same for the reference (its run is a straight line of 61 host operations);
    · KerRead, RefRead: each result read at an index (r, c) is the layer, in the kernel's and in the reference's
      arrangement, over the product's entries;
    · Layer: the two arrangements are one function — a sum over edges-and-loops split into the edges and the
      loops, the loop with word r the only one landing on r, the weight 1.0 dropped, + and · reassociated and
      commuted on the extended reals.  No finiteness is needed, so the precondition is never opened.
  The three frames: the two kernel programs' are generated; the reference's is its run with the result dropped.
  The ideal pass rewrote nothing, so `preserves` is trivial.
-/
import proofs.«170912_j32487132627457_2_alg».proof.Defs
import proofs.«170912_j32487132627457_2_alg».proof.Proof.Gen.Kernel
import proofs.«170912_j32487132627457_2_alg».proof.Proof.Gen.Kernel.Frame
import proofs.«170912_j32487132627457_2_alg».proof.Proof.Gen.KernelIdeal
import proofs.«170912_j32487132627457_2_alg».proof.Proof.Gen.KernelIdeal.Frame
import proofs.«170912_j32487132627457_2_alg».proof.Proof.Gen.ReferenceIdeal
import proofs.«170912_j32487132627457_2_alg».proof.Proof.Gen.Pre_finite_inputs
import proofs.«170912_j32487132627457_2_alg».proof.Proof.KerRead
import proofs.«170912_j32487132627457_2_alg».proof.Proof.RefRead
import proofs.«170912_j32487132627457_2_alg».proof.Proof.Layer
import Idealize.ShloMosaic.Adequacy
import Idealize.ShloMosaic.Init

noncomputable section

namespace Cert.Proof

open Idealize.ShloMosaic Idealize.ShloMosaic.ValueIdx Idealize.SL.Sem

/-- The two programs' results are one function of the arguments: entry by entry, the layer in two arrangements
    over the same product x · w (the host's `dot_general` in both spellings). -/
theorem results_agree (x0 : (⟨Cert.KernelIdeal.S100000x64, .f32⟩ : BufTy).Contents (Elt Ideal))
    (x1 : (⟨Cert.KernelIdeal.S64x64, .f32⟩ : BufTy).Contents (Elt Ideal))
    (x2 : (⟨Cert.KernelIdeal.S2x1600000, .i32⟩ : BufTy).Contents (Elt Ideal)) :
    Cert.ReferenceIdeal.Hand.s_main_v46 (F := Ideal) x0 x1 x2 = Cert.KernelIdeal.Host.out x0 x1 x2 := by
  funext j
  obtain ⟨r, c, rfl⟩ : ∃ (r : Fin 100000) (c : Fin 64), j = ix2 r c := ⟨j 0, j 1, eq_ix2 j⟩
  rw [Cert.ReferenceIdeal.Hand.result_apply, Cert.KernelIdeal.Host.out_apply, Cert.Layer.outR_eq_outK]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both idealized programs run, from memories agreeing on the arguments, to the same result. -/
theorem algebraic : Cert.algebraic_KernelIdeal_ReferenceIdeal := by
  intro m ρ m' ρ' _ hagree
  refine ⟨_, Cert.KernelIdeal.Host.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact results_agree _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
